-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_
  bcast_S_S16x11008 : S_.BroadcastsInDim S16x11008 (![] : Fin 0 → Fin S16x11008.rank)
  reducesTo_S16x11008_S_d0_1 : S16x11008.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S11008x16 .f32) (main_arg8 : FVec F S16x11008 .f32) (main_arg9 : FVec F S4096x16 .f32) (main_v33 : IVec S_ 1) : IVec S_ 1 :=
  let main_v34 : FVec F S11008x16 .f32 := Host.absf main_arg7
  let main_cst_12 : FVec F S_ .f32 := constant S_ .f32 0x7F800000#32
  let main_v35 : FVec F S11008x16 .f32 := broadcastInDim S11008x16 ![] bcast_S_S11008x16 main_cst_12
  let main_v36 : IVec S11008x16 1 := cmpf .olt main_v34 main_v35
  let main_c_13 : IVec S_ 1 := constantI S_ 1 1#1
  let main_v37 : IVec S_ 1 := (fun x v => Host.reduce IntOp.andi x v reducesTo_S11008x16_S_d0_1 h_S_) main_v36 main_c_13
  let main_v38 : IVec S_ 1 := andi main_v33 main_v37
  let main_v39 : FVec F S16x11008 .f32 := Host.absf main_arg8
  let main_cst_14 : FVec F S_ .f32 := constant S_ .f32 0x7F800000#32
  let main_v40 : FVec F S16x11008 .f32 := broadcastInDim S16x11008 ![] bcast_S_S16x11008 main_cst_14
  let main_v41 : IVec S16x11008 1 := cmpf .olt main_v39 main_v40
  let main_c_15 : IVec S_ 1 := constantI S_ 1 1#1
  let main_v42 : IVec S_ 1 := (fun x v => Host.reduce IntOp.andi x v reducesTo_S16x11008_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S11008x16 .f32 := Host.absf main_arg5
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S11008x4096 .f32) (main_arg2 : FVec F S11008x4096 .f32) (main_arg3 : FVec F S4096x11008 .f32) (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S8192x4096 : Shape := ⟨2, ![8192, 4096]⟩
abbrev S8192x16 : Shape := ⟨2, ![8192, 16]⟩
abbrev S8192x11008 : Shape := ⟨2, ![8192, 11008]⟩
abbrev S1024x4096 : Shape := ⟨2, ![1024, 4096]⟩
abbrev S256x4096 : Shape := ⟨2, ![256, 4096]⟩
abbrev S1024x16 : Shape := ⟨2, ![1024, 16]⟩
abbrev S256x16 : Shape := ⟨2, ![256, 16]⟩
abbrev S1024x256 : Shape := ⟨2, ![1024, 256]⟩
abbrev S4096x256 : Shape := ⟨2, ![4096, 256]⟩
abbrev S16x256 : Shape := ⟨2, ![16, 256]⟩
abbrev S512x256 : Shape := ⟨2, ![512, 256]⟩
abbrev S512x4096 : Shape := ⟨2, ![512, 4096]⟩
abbrev S512x16 : Shape := ⟨2, ![512, 16]⟩

abbrev nBuf : Space → Nat
  | .hbm => 30
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S8192x4096, .f32⟩
  | .hbm, ⟨11, _⟩ => ⟨S8192x4096, .bf16⟩
  | .hbm, ⟨12, _⟩ => ⟨S11008x4096, .bf16⟩
  | .hbm, ⟨13, _⟩ => ⟨S11008x4096, .bf16⟩
  | .hbm, ⟨14, _⟩ => ⟨S4096x11008, .bf16⟩
  | .hbm, ⟨15, _⟩ => ⟨S16x4096, .bf16⟩
  | .hbm, ⟨16, _⟩ => ⟨S11008x16, .bf16⟩
  | .hbm, ⟨17, _⟩ => ⟨S16x4096, .bf16⟩
  | .hbm, ⟨18, _⟩ => ⟨S11008x16, .bf16⟩
  | .hbm, ⟨19, _⟩ => ⟨S16x11008, .bf16⟩
  | .hbm, ⟨20, _⟩ => ⟨S4096x16, .bf16⟩
  | .hbm, ⟨21, _⟩ => ⟨S4096x16, .bf16⟩
  | .hbm, ⟨22, _⟩ => ⟨S8192x16, .f32⟩
  | .hbm, ⟨23, _⟩ => ⟨S8192x16, .bf16⟩
  | .hbm, ⟨24, _⟩ => ⟨S4096x16, .bf16⟩
  | .hbm, ⟨25, _⟩ => ⟨S8192x16, .f32⟩
  | .hbm, ⟨26, _⟩ => ⟨S8192x16, .bf16⟩
  | .hbm, ⟨27, _⟩ => ⟨S8192x11008, .bf16⟩
  | .hbm, ⟨28, _⟩ => ⟨S8192x4096, .f32⟩
  | .hbm, ⟨29, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x16, .bf16⟩
  | .local _ .vmem, ⟨7, _⟩ => ⟨S1024x16, .bf16⟩
  | .local _ .vmem, ⟨8, _⟩ => ⟨S256x16, .bf16⟩
  | .local _ .vmem, ⟨9, _⟩ => ⟨S256x16, .bf16⟩
  | .local _ .vmem, ⟨10, _⟩ => ⟨S1024x16, .bf16⟩
  | .local _ .vmem, ⟨11, _⟩ => ⟨S1024x16, .bf16⟩
  | .local _ .vmem, ⟨12, _⟩ => ⟨S256x16, .bf16⟩
  | .local _ .vmem, ⟨13, _⟩ => ⟨S256x16, .bf16⟩
  | .local _ .vmem, ⟨14, _⟩ => ⟨S1024x256, .bf16⟩
  | .local _ .vmem, ⟨15, _⟩ => ⟨S1024x256, .bf16⟩
  | .local _ .vmem, ⟨16, _⟩ => ⟨S512x256, .bf16⟩
  | .local _ .vmem, ⟨17, _⟩ => ⟨S512x256, .bf16⟩
  | .local _ .vmem, ⟨18, _⟩ => ⟨S4096x256, .bf16⟩
  | .local _ .vmem, ⟨19, _⟩ => ⟨S4096x256, .bf16⟩
  | .local _ .vmem, ⟨20, _⟩ => ⟨S16x256, .bf16⟩
  | .local _ .vmem, ⟨21, _⟩ => ⟨S16x256, .bf16⟩
  | .local _ .vmem, ⟨22, _⟩ => ⟨S4096x16, .bf16⟩
  | .local _ .vmem, ⟨23, _⟩ => ⟨S512x4096, .f32⟩
  | .local _ .vmem, ⟨24, _⟩ => ⟨S512x4096, .f32⟩
  | .local _ .vmem, ⟨25, _⟩ => ⟨S512x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S4096x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x2048x4096_S8192x4096 : S4x2048x4096.ShapeCasts S8192x4096
  bitsLt_bf16_f32 : FTy.bits .bf16 < FTy.bits .f32
  transposes_S16x4096_S4096x16_1_0 : S16x4096.Transposes [1, 0] S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x4096_p1_0_S4096x256 : S256x4096.Transposes [1, 0] S4096x256
  transposes_S256x16_p1_0_S16x256 : S256x16.Transposes [1, 0] S16x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S512x4096_S512x4096 : S512x4096.ShapeCasts S512x4096
  transposes_S4096x256_p1_0_S256x4096 : S4096x256.Transposes [1, 0] S256x4096
  transposes_S16x256_p1_0_S256x16 : S16x256.Transposes [1, 0] S256x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  transposes_S4096x16_p1_0_S16x4096 : S4096x16.Transposes [1, 0] S16x4096
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S1024x4096_S4096x256_S1024x256_1_0_0_1_n_n_wf : DotDims.WF S1024x4096 S4096x256 S1024x256 [1] [0] [0] [1] [] []
  dot_S1024x16_S16x256_S1024x256_1_0_0_1_n_n_wf : DotDims.WF S1024x16 S16x256 S1024x256 [1] [0] [0] [1] [] []
  dot_S512x256_S256x4096_S512x4096_1_0_0_1_n_n_wf : DotDims.WF S512x256 S256x4096 S512x4096 [1] [0] [0] [1] [] []
  dot_S512x256_S256x16_S512x16_1_0_0_1_n_n_wf : DotDims.WF S512x256 S256x16 S512x16 [1] [0] [0] [1] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .bf16 = 32 ∨ (Rect.block (s := S8192x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .bf16 = 32 ∨ (Rect.block (s := S11008x16) S256x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S8192x16.size a
  hwx0_5 : ∀ i : grid0.Coords, EltTy.bits .bf16 = 32 ∨ (Rect.block (s := S8192x16) S1024x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S11008x16.size a
  hwx0_6 : ∀ i : grid0.Coords, EltTy.bits .bf16 = 32 ∨ (Rect.block (s := S11008x16) S256x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x11008.size a
  hwx0_7 : ∀ i : grid0.Coords, EltTy.bits .bf16 = 32 ∨ (Rect.block (s := S8192x11008) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x11008.size a
  hwx1_0 : ∀ i : grid1.Coords, EltTy.bits .bf16 = 32 ∨ (Rect.block (s := S8192x11008) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x11008.size a
  hwx1_2 : ∀ i : grid1.Coords, EltTy.bits .bf16 = 32 ∨ (Rect.block (s := S16x11008) S16x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S4096x16.size a
  hwx1_3 : ∀ i : grid1.Coords, EltTy.bits .bf16 = 32 ∨ (Rect.block (s := S4096x16) S4096x16.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S8192x4096.size a
  hwx1_4 : ∀ i : grid1.Coords, EltTy.bits .f32 = 32 ∨ (Rect.block (s := S8192x4096) S512x4096.size (cc1_transform_4 i) (hinb1_4 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4096x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S4x2048x11008 : Shape := ⟨3, ![4, 2048, 11008]⟩
abbrev S4x2048x16 : Shape := ⟨3, ![4, 2048, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S4x2048x11008, .f32⟩
  | .hbm, ⟨11, _⟩ => ⟨S4x2048x16, .f32⟩
  | .hbm, ⟨12, _⟩ => ⟨S4x2048x11008, .f32⟩
  | .hbm, ⟨13, _⟩ => ⟨S_, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S4x2048x11008, .f32⟩
  | .hbm, ⟨18, _⟩ => ⟨S4x2048x16, .f32⟩
  | .hbm, ⟨19, _⟩ => ⟨S4x2048x11008, .f32⟩
  | .hbm, ⟨20, _⟩ => ⟨S_, .f32⟩
  | .hbm, ⟨21, _⟩ => ⟨S4x2048x11008, .f32⟩
  | .hbm, ⟨22, _⟩ => ⟨S4x2048x11008, .f32⟩
  | .hbm, ⟨23, _⟩ => ⟨S4x2048x11008, .f32⟩
  | .hbm, ⟨24, _⟩ => ⟨S4x2048x11008, .f32⟩
  | .hbm, ⟨25, _⟩ => ⟨S4x2048x11008, .f32⟩
  | .hbm, ⟨26, _⟩ => ⟨S_, .f32⟩
  | .hbm, ⟨27, _⟩ => ⟨S4x2048x11008, .f32⟩
  | .hbm, ⟨28, _⟩ => ⟨S4x2048x11008, .f32⟩
  | .hbm, ⟨29, _⟩ => ⟨S_, .f32⟩
  | .hbm, ⟨30, _⟩ => ⟨S4x2048x11008, .f32⟩
  | .hbm, ⟨31, _⟩ => ⟨S4x2048x11008, .f32⟩
  | .hbm, ⟨32, _⟩ => ⟨S4x2048x11008, .f32⟩
  | .hbm, ⟨33, _⟩ => ⟨S4x2048x11008, .f32⟩
  | .hbm, ⟨34, _⟩ => ⟨S4x2048x4096, .f32⟩
  | .hbm, ⟨35, _⟩ => ⟨S4x2048x16, .f32⟩
  | .hbm, ⟨36, _⟩ => ⟨S4x2048x4096, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  bcast_S_S4x2048x11008 : S_.BroadcastsInDim S4x2048x11008 (![] : Fin 0 → Fin S4x2048x11008.rank)
  bcast_S_S4x2048x4096 : S_.BroadcastsInDim S4x2048x4096 (![] : Fin 0 → Fin S4x2048x4096.rank)
  dot_S4x2048x4096_S11008x4096_S4x2048x11008_2_1_01_0_n_n_wf : DotDims.WF S4x2048x4096 S11008x4096 S4x2048x11008 [2] [1] [0, 1] [0] [] []
  dot_S4x2048x4096_S16x4096_S4x2048x16_2_1_01_0_n_n_wf : DotDims.WF S4x2048x4096 S16x4096 S4x2048x16 [2] [1] [0, 1] [0] [] []
  dot_S4x2048x16_S11008x16_S4x2048x11008_2_1_01_0_n_n_wf : DotDims.WF S4x2048x16 S11008x16 S4x2048x11008 [2] [1] [0, 1] [0] [] []
  dot_S4x2048x11008_S4096x11008_S4x2048x4096_2_1_01_0_n_n_wf : DotDims.WF S4x2048x11008 S4096x11008 S4x2048x4096 [2] [1] [0, 1] [0] [] []
  dot_S4x2048x11008_S16x11008_S4x2048x16_2_1_01_0_n_n_wf : DotDims.WF S4x2048x11008 S16x11008 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S11008x16_S4x2048x11008_2_1_01_0_n_n : DotDims S4x2048x16 S11008x16 S4x2048x11008 where
  lhsContracting := [2]
  rhsContracting := [1]
  lhsNonContracting := [0, 1]
  rhsNonContracting := [0]
  lhsBatch := []
  rhsBatch := []
  wf := dot_S4x2048x16_S11008x16_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf
def dot_S4x2048x11008_S16x11008_S4x2048x16_2_1_01_0_n_n : DotDims S4x2048x11008 S16x11008 S4x2048x16 where
  lhsContracting := [2]
  rhsContracting := [1]
  lhsNonContracting := [0, 1]
  rhsNonContracting := [0]
  lhsBatch := []
  rhsBatch := []
  wf := dot_S4x2048x11008_S16x11008_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.K.R0.lean ====
/- REGION 0 of @main — the gate kernel's pallas_call, pipeline 0 — at a PARAMETER `V`: the TensorCore's buffer
   contents when the region is entered. Per window its block at a point (`iblk0`); what the body leaves in the
   output window's buffer as a closed function of the seven input blocks (`out0_7`: the one whole-block store's
   payload laid over the buffer); the body's triple on whole staging memrefs (`sound_kernel0`); the proof data
   (`dat0`: inputs at their blocks, the output at `out0_7` of them, the invariant untouched, nothing owed) and
   the body obligation at every grid point (`body_obligation0`). Stated for any float model `F`. -/
import proofs.«127141_j13503377178799_2_alg».proof.Proof.Gen.Kernel.Launch
import proofs.«127141_j13503377178799_2_alg».proof.Proof.Gen.Kernel.Skeleton
import proofs.«127141_j13503377178799_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided one coordinate of the long axes at a time
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: seven whole-block loads and one whole-block store -/

abbrev r0_0 : Rect S1024x4096 := Rect.unit (s := S1024x4096) ![0, 0] S1024x4096.size inb_S1024x4096_S1024x4096_0_0
abbrev r0_1 : Rect S256x4096 := Rect.unit (s := S256x4096) ![0, 0] S256x4096.size inb_S256x4096_S256x4096_0_0
abbrev r0_2 : Rect S256x4096 := Rect.unit (s := S256x4096) ![0, 0] S256x4096.size inb_S256x4096_S256x4096_0_0
abbrev r0_3 : Rect S1024x16 := Rect.unit (s := S1024x16) ![0, 0] S1024x16.size inb_S1024x16_S1024x16_0_0
abbrev r0_4 : Rect S256x16 := Rect.unit (s := S256x16) ![0, 0] S256x16.size inb_S256x16_S256x16_0_0
abbrev r0_5 : Rect S1024x16 := Rect.unit (s := S1024x16) ![0, 0] S1024x16.size inb_S1024x16_S1024x16_0_0
abbrev r0_6 : Rect S256x16 := Rect.unit (s := S256x16) ![0, 0] S256x16.size inb_S256x16_S256x16_0_0
abbrev r0_7 : Rect S1024x256 := Rect.unit (s := S1024x256) ![0, 0] S1024x256.size inb_S1024x256_S1024x256_0_0

/-! ## What the body leaves in the output window's buffer -/

/-- Window 7's staging buffer after the body, from the seven input windows' blocks: its one store as a piece
    (`View.canon`); the payload is the gate value of the seven loads. The body also loads the output buffer once
    before the store; that value is not used. -/
def out0_7 (x0 : Vec F S1024x4096 .bf16) (x1 x2 : Vec F S256x4096 .bf16) (x3 : Vec F S1024x16 .bf16) (x4 : Vec F S256x16 .bf16) (x5 : Vec F S1024x16 .bf16) (x6 : Vec F S256x16 .bf16) : Vec F S1024x256 .bf16 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer, so it covers it. -/
theorem cover0_7 (p0 : Vec F S1024x256 .bf16) (y : S1024x256.Idx) :
    ∃ pc ∈ ([⟨r0_7, p0⟩] : List (View.Piece (Elt F) S1024x256 .bf16)), y ∈ pc.1.set :=
  View.cover_of_tiled [⟨r0_7, p0⟩] S1024x256.size (by rfl) y

/-! ## The body's triple -/

set_option maxHeartbeats 2000000 in
/-- The kernel body on whole staging memrefs, the inputs' at read contents `xW` and the output's at anything, runs to
    the continuation holding the inputs' as they were and the output's at `out0_7` of the inputs': the body is its
    sequence of seven loads, one load of the output buffer (unused) and one store, run symbolically. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1024x16 .bf16) (harg5 : arg5.IsWhole) (arg6 : Memref sig .tc .vmem S256x16 .bf16) (harg6 : arg6.IsWhole) (arg7 : Memref sig .tc .vmem S1024x16 .bf16) (harg7 : arg7.IsWhole) (arg8 : Memref sig .tc .vmem S256x16 .bf16) (harg8 : arg8.IsWhole) (arg9 : Memref sig .tc .vmem S1024x256 .bf16) (harg9 : arg9.IsWhole)
    (x0 : Vec F S1024x4096 .bf16) (x1 x2 : Vec F S256x4096 .bf16) (x3 : Vec F S1024x16 .bf16) (x4 : Vec F S256x16 .bf16) (x5 : Vec F S1024x16 .bf16) (x6 : Vec F S256x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__gate_kernel i arg2 harg2 arg3 harg3 arg4 harg4 arg5 harg5 arg6 harg6 arg7 harg7 arg8 harg8 arg9 harg9) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    `ΦA` (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/-
  Region 1 (the down projection's launch), first half: what its body does on whole staging buffers.

  The grid is 16 row tiles by 43 hidden blocks, row-major; at a point t the hidden block is k = t % 43.
  The body has three control cases: at k = 0 it first zeroes the output tile and the small
  accumulator; at every k it adds the block's contribution to both; at k = 42 it then adds the
  low-rank term to the output tile.  Each case is run once, on any whole buffers: the inputs at
  given contents, the output tile and the accumulator at what the point before left (at anything
  where the case overwrites them first), and the run yields the list of pieces each of the two
  ends with.  Nothing here depends on the float instance.
-/
import proofs.«127141_j13503377178799_2_alg».proof.Proof.Gen.Kernel.Launch
import proofs.«127141_j13503377178799_2_alg».proof.Proof.Gen.Kernel.Skeleton
import proofs.«127141_j13503377178799_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The body's first branch is taken when the hidden block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- The body's second branch is taken when the hidden block is the last. -/
abbrev cond1_1 (i : grid1.Coords) : Prop := (Scalar.cmpi .ne (Scalar.extui (Scalar.cmpi .eq (BitVec.ofNat 32 (i 1).val) 42#32)) 0#32) = 1#1
theorem hcond1_1 : ∀ t : Fin cfg1.N, cond1_1 (grid1.coords t) ↔ t.val % 43 = 42 :=
  (by decide +kernel : ∀ t : Fin grid1.N, cond1_1 (grid1.coords t) ↔ t.val % 43 = 42)

/-- The output window is live at every point: every case stores into it. -/
theorem liveAt1_4 : ∀ t : Fin cfg1.N, cfg1.idle 4 (grid1.coords t) = false := by decide +kernel

/-! ## The buffers the body is called with -/

/-- One staging buffer of the output window, through which its contents are stated. -/
abbrev VO1_4 : View sig .tc .vmem S512x4096 .f32 := (Memref.whole cc1_stg4_0 : Memref sig .tc .vmem S512x4096 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x16 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The small accumulator: a whole scoped buffer of the kernel's own. -/
abbrev scM1_0 : Memref sig .tc .vmem S512x16 .f32 := Memref.whole cc1_scratch0
abbrev VS1_0 : View sig .tc .vmem S512x16 .f32 := scM1_0.view

/-- The class invariant, conjunct by conjunct: the other launch's staging buffers at anything, the accumulator owned at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The three whole-body runs -/

set_option maxHeartbeats 4000000 in
/-- CASE A (first hidden block): the output tile and the accumulator are overwritten with zeros first, so they are
    taken at anything; the pieces each ends with are the run's witness. -/
noncomputable def kernelRun1_A (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    Σ' (L4 : List (View.Piece (Elt F) S512x4096 .f32)), { LS0 : List (View.Piece (Elt F) S512x16 .f32) //
      ∀ (xi3 : Vec F S4096x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 4000000 in
/-- CASE B (a middle hidden block): the output tile and the accumulator are read before they are overwritten, so they are
    taken at what the point before left, xo4 and xs0. -/
noncomputable def kernelRun1_B (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    Σ' (L4 : List (View.Piece (Elt F) S512x4096 .f32)), { LS0 : List (View.Piece (Elt F) S512x16 .f32) //
      ∀ (xi3 : Vec F S4096x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 4000000 in
/-- CASE C (the last hidden block): as case B, and the adapter's up-projection x3 is read for the low-rank term. -/
noncomputable def kernelRun1_C (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output tile's buffer and in the accumulator -/

/-- Case A's pieces for the output tile cover it. -/
theorem cover1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S512x4096.size (by sl_kernel_rfl) y

/-- What case A leaves in the output tile's staging buffer: its pieces read back over junk. -/
def out1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk (kernelRun1_A c i arg2 harg2 arg3 harg3 arg4 harg4 arg5 harg5 arg6 harg6 arg7 harg7 hc0 hc1 x0 x1 x2).1)

/-- Case A's pieces for the accumulator cover it. -/
theorem scover1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x16.size (by sl_kernel_rfl) y

/-- What case A leaves in the accumulator: its pieces read back over junk. -/
def sout1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case B's pieces for the output tile cover it. -/
theorem cover1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x4096.Idx) :
    ∃ pc ∈ (kernelRun1_B c i arg2 harg2 arg3 harg3 arg4 harg4 arg5 harg5 arg6 harg6 arg7 harg7 hc0 hc1 x0 x1 x2 xo4 xs0).1, y ∈ pc.1.set :=
  View.cover_of_tiledL (kernelRun1_B c i arg2 harg2 arg3 harg3 arg4 harg4 arg5 harg5 arg6 harg6 arg7 harg7 hc0 hc1 x0 x1 x2 xo4 xs0).1 S512x4096.size (by sl_kernel_rfl) y

/-- What case B leaves in the output tile's staging buffer: its pieces read back over junk. -/
def out1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x4096 .f32 :=
  VO1_4.read (Elt F) (VO1_4.writes (Elt F) VO1_4.junk (kernelRun1_B c i arg2 harg2 arg3 harg3 arg4 harg4 arg5 harg5 arg6 harg6 arg7 harg7 hc0 hc1 x0 x1 x2 xo4 xs0).1)

/-- Case B's pieces for the accumulator cover it. -/
theorem scover1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x16.Idx) :
    ∃ pc ∈ (kernelRun1_B c i arg2 harg2 arg3 harg3 arg4 harg4 arg5 harg5 arg6 harg6 arg7 harg7 hc0 hc1 x0 x1 x2 xo4 xs0).2.1, y ∈ pc.1.set :=
  View.cover_of_tiledL (kernelRun1_B c i arg2 harg2 arg3 harg3 arg4 harg4 arg5 harg5 arg6 harg6 arg7 harg7 hc0 hc1 x0 x1 x2 xo4 xs0).2.1 S512x16.size (by sl_kernel_rfl) y

/-- What case B leaves in the accumulator: its pieces read back over junk. -/
def sout1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x16 .f32 :=
  VS1_0.read (Elt F) (VS1_0.writes (Elt F) VS1_0.junk (kernelRun1_B c i arg2 harg2 arg3 harg3 arg4 harg4 arg5 harg5 arg6 harg6 arg7 harg7 hc0 hc1 x0 x1 x2 xo4 xs0).2.1)

/-- Case C's pieces for the output tile cover it. -/
theorem cover1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) (y : S512x4096.Idx) :
    ∃ pc ∈ (kernelRun1_C c i arg2 harg2 arg3 harg3 arg4 harg4 arg5 harg5 arg6 harg6 arg7 harg7 hc0 hc1 x0 x1 x2 x3 xo4 xs0).1, y ∈ pc.1.set :=
  View.cover_of_tiledL (kernelRun1_C c i arg2 harg2 arg3 harg3 arg4 harg4 arg5 harg5 arg6 harg6 arg7 harg7 hc0 hc1 x0 x1 x2 x3 xo4 xs0).1 S512x4096.size (by sl_kernel_rfl) y

/-- What case C leaves in the output tile's staging buffer: its pieces read back over junk. -/
def out1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) : Vec F S512x4096 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4 xs0).1)

/-- Case C's pieces for the accumulator cover it. -/
theorem scover1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) (y : S512x16.Idx) :
    ∃ pc ∈ (kernelRun1_C c i arg2 harg2 arg3 harg3 arg4 harg4 arg5 harg5 arg6 harg6 arg7 harg7 hc0 hc1 x0 x1 x2 x3 xo4 xs0).2.1, y ∈ pc.1.set :=
  View.cover_of_tiledL (kernelRun1_C c i arg2 harg2 arg3 harg3 arg4 harg4 arg5 harg5 arg6 harg6 arg7 harg7 hc0 hc1 x0 x1 x2 x3 xo4 xs0).2.1 S512x16.size (by sl_kernel_rfl) y

/-- What case C leaves in the accumulator: its pieces read back over junk. -/
def sout1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) : Vec F S512x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xo4 xs0).2.1)

end Cert.Kernel.Hand

end
-- ==== Proof.K.R1.lean ====
/-
  Region 1 (the down projection's launch), second half: what its buffers hold point by point, and
  the body obligation.

  Along a row tile's 43 hidden blocks the output tile stays in one staging buffer (it is written
  back only after the last block) and the small accumulator stays in its scratch buffer: after
  point t both hold what the case of t leaves, computed from the point's input blocks and, except at
  a first block, from what point t - 1 left.  The region invariant records the accumulator's
  contents between points; before the first point and after the last it is the plain one.
-/
import proofs.«127141_j13503377178799_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What the output tile's buffer and the accumulator hold after each point -/

/-- After the body at position n: the output tile's staging buffer, then the accumulator. -/
def outsAt1 (c : Dev nD) : (n : ℕ) → n < cfg1.N → Vec F S512x4096 .f32 × Vec F S512x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first hidden block: case A's contents. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle hidden block: case B's contents, over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last hidden block: case C's contents, over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents between points -/

/-- Before position n: at the start the plain class invariant (the accumulator at anything); afterwards the other
    launch's staging buffers at anything, the accumulator at what the point before left, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block, the output tile's
    at the accumulation; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Away from a first hidden block the output tile's staging buffer holds what the body left at the point before: the
    buffer was not written back between. -/
theorem before1_4_kept (c : Dev nD) (t : Fin cfg1.N) (h0 : ¬t.val % 43 = 0) (d) :
    (dat1 V c).before 4 t d = (outsAt1 V c (t.val - 1) (Nat.lt_of_le_of_lt (Nat.sub_le _ _) t.isLt)).1 := by
  have hN : t.val < 688 := lt_of_lt_of_eq t.isLt (show cfg1.N = 688 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 8000000 in
/-- The body at any point: the inputs' buffers hold their blocks; the point's case is decided by t % 43; away from a first
    block the output tile's buffer and the accumulator hold what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 688 := lt_of_lt_of_eq t.isLt (show cfg1.N = 688 from N_1)
  by_cases h0 : t.val % 43 = 0
  · by_cases h1 : t.val % 43 = 42
    · exfalso; omega
    · rw [outsAt1_A V c t h0 h1]
      unfold out1_A_4 sout1_A_0; (try dsimp only)
      by_cases hz : t.val = 0
      · rw [PhiS_castSucc V c t, PhiS_zero V c _ _ hz, PhiA1_eq]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
  · by_cases h1 : t.val % 43 = 42
    · simp only [before1_4_kept V c t h0]
      rw [outsAt1_C V c t h0 h1]
      unfold out1_C_4 sout1_C_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ _).2.2 Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_C_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _)
    · simp only [before1_4_kept V c t h0]
      rw [outsAt1_B V c t h0 h1]
      unfold out1_B_4 sout1_B_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_B_4 c _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HR14, HR15, HS0⟩, Hg⟩
  isplitl [HR0 HR1 HR2 HR3 HR4 HR5 HR6 HR7 HR8 HR9 HR10 HR11 HR12 HR13 HR14 HR15 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexists _; iexact HS0
  iexact Hg

theorem hout1 (c : Dev nD) : (dat1 V c).Φ (Fin.last cfg1.N) ⊢ Pipeline.ΦA spec1 c :=
  Phi_out1 V c _ (by rw [Fin.val_last]; have : cfg1.N = 688 := N_1; omega)

end Region1

end Cert.Kernel.Hand

end
-- ==== Proof.K.Run.lean ====
/- THE RUN of @main from the launch to the return, at any float interpretation: a host stretch, two kernel
   regions back to back, a host stretch. The buffer contents at each boundary are a fold from the launch memory (a
   stretch's `StableHlo.after`; a region's arrays at what its write-backs leave, every other buffer as entered); each
   argument array read back through the fold holds its launch contents; the four segments chain over the thread state
   "every unscoped buffer at the boundary's contents, the generator register at some state, nothing owed". -/
import proofs.«127141_j13503377178799_2_alg».proof.Proof.Gen.Kernel.Launch
import proofs.«127141_j13503377178799_2_alg».proof.Proof.Gen.Kernel.Skeleton
import proofs.«127141_j13503377178799_2_alg».proof.Proof.Gen.Kernel.Points
import proofs.«127141_j13503377178799_2_alg».proof.Proof.Gen.Kernel.Regions
import proofs.«127141_j13503377178799_2_alg».proof.Proof.K.R0
import proofs.«127141_j13503377178799_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents, which region 1 is entered from. -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the launch reads at the end. -/
abbrev W4 : Dev nD → Valuation τ sig (Elt F) := fun c => StableHlo.after hostOps2 (W3 m ρ c)

/-! ### The arguments end as launched: no host operation writes one and none is a window's array of either region,
    so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the last host stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2` (what region 1 is
    entered from). Its arrays split out of the unscoped buffers and put back at the exit contents; the generator
    register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the last host
    stretch is entered from). Its invariant is the region's own (the carried scratch at the running contents): the
    generator register and the scoped rest enter it at the first point and leave it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: the first host stretch from the launch contents, the two regions, the last host
    stretch from region 1's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN, at any post that follows from the last boundary's contents: at the compiled mesh, from any memory with
    zero counters, every weakly fair execution of @main on the TensorCores terminates, nothing faulting, and every
    final memory holds each unscoped buffer at `W4` — the launch over the segments, the last thread state read against
    the final state. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- Every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  run_post m ρ fun _ h => h

/-- THE FRAME, at any float interpretation: every weakly fair execution of @main terminates, nothing faulting, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩

end Cert.Kernel.Hand

end
-- ==== Proof.KI.R0.lean ====
/- REGION 0 of @main — the gate kernel's pallas_call, pipeline 0 — at a PARAMETER `V`: the TensorCore's buffer
   contents when the region is entered. Per window its block at a point (`iblk0`); what the body leaves in the
   output window's buffer as a closed function of the seven input blocks (`out0_7`: the one whole-block store's
   payload laid over the buffer); the body's triple on whole staging memrefs (`sound_kernel0`); the proof data
   (`dat0`: inputs at their blocks, the output at `out0_7` of them, the invariant untouched, nothing owed) and
   the body obligation at every grid point (`body_obligation0`). Stated for any float model `F`. -/
import proofs.«127141_j13503377178799_2_alg».proof.Proof.Gen.KernelIdeal.Launch
import proofs.«127141_j13503377178799_2_alg».proof.Proof.Gen.KernelIdeal.Skeleton
import proofs.«127141_j13503377178799_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided one coordinate of the long axes at a time
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): where the window is not
    fetched its block index has not moved, so the previous point's block is this point's
    (`Dat.before_in_eq_fetched`); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: seven whole-block loads and one whole-block store -/

abbrev r0_0 : Rect S1024x4096 := Rect.unit (s := S1024x4096) ![0, 0] S1024x4096.size inb_S1024x4096_S1024x4096_0_0
abbrev r0_1 : Rect S256x4096 := Rect.unit (s := S256x4096) ![0, 0] S256x4096.size inb_S256x4096_S256x4096_0_0
abbrev r0_2 : Rect S256x4096 := Rect.unit (s := S256x4096) ![0, 0] S256x4096.size inb_S256x4096_S256x4096_0_0
abbrev r0_3 : Rect S1024x16 := Rect.unit (s := S1024x16) ![0, 0] S1024x16.size inb_S1024x16_S1024x16_0_0
abbrev r0_4 : Rect S256x16 := Rect.unit (s := S256x16) ![0, 0] S256x16.size inb_S256x16_S256x16_0_0
abbrev r0_5 : Rect S1024x16 := Rect.unit (s := S1024x16) ![0, 0] S1024x16.size inb_S1024x16_S1024x16_0_0
abbrev r0_6 : Rect S256x16 := Rect.unit (s := S256x16) ![0, 0] S256x16.size inb_S256x16_S256x16_0_0
abbrev r0_7 : Rect S1024x256 := Rect.unit (s := S1024x256) ![0, 0] S1024x256.size inb_S1024x256_S1024x256_0_0

/-! ## What the body leaves in the output window's buffer -/

/-- Window 7's staging buffer after the body, from the seven input windows' blocks: its one store as a piece
    (`View.canon`); the payload is the gate value of the seven loads. The body also loads the output buffer once
    before the store; that value is not used. -/
def out0_7 (x0 : Vec F S1024x4096 .bf16) (x1 x2 : Vec F S256x4096 .bf16) (x3 : Vec F S1024x16 .bf16) (x4 : Vec F S256x16 .bf16) (x5 : Vec F S1024x16 .bf16) (x6 : Vec F S256x16 .bf16) : Vec F S1024x256 .bf16 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer, so it covers it. -/
theorem cover0_7 (p0 : Vec F S1024x256 .bf16) (y : S1024x256.Idx) :
    ∃ pc ∈ ([⟨r0_7, p0⟩] : List (View.Piece (Elt F) S1024x256 .bf16)), y ∈ pc.1.set :=
  View.cover_of_tiled [⟨r0_7, p0⟩] S1024x256.size (by rfl) y

/-! ## The body's triple -/

set_option maxHeartbeats 2000000 in
/-- The kernel body on whole staging memrefs, the inputs' at read contents `xW` and the output's at anything, runs to
    the continuation holding the inputs' as they were and the output's at `out0_7` of the inputs': the body is its
    sequence of seven loads, one load of the output buffer (unused) and one store, run symbolically. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1024x16 .bf16) (harg5 : arg5.IsWhole) (arg6 : Memref sig .tc .vmem S256x16 .bf16) (harg6 : arg6.IsWhole) (arg7 : Memref sig .tc .vmem S1024x16 .bf16) (harg7 : arg7.IsWhole) (arg8 : Memref sig .tc .vmem S256x16 .bf16) (harg8 : arg8.IsWhole) (arg9 : Memref sig .tc .vmem S1024x256 .bf16) (harg9 : arg9.IsWhole)
    (x0 : Vec F S1024x4096 .bf16) (x1 x2 : Vec F S256x4096 .bf16) (x3 : Vec F S1024x16 .bf16) (x4 : Vec F S256x16 .bf16) (x5 : Vec F S1024x16 .bf16) (x6 : Vec F S256x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__gate_kernel i arg2 harg2 arg3 harg3 arg4 harg4 arg5 harg5 arg6 harg6 arg7 harg7 arg8 harg8 arg9 harg9) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    `ΦA` (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/-
  Region 1 (the down projection's launch), first half: what its body does on whole staging buffers.

  The grid is 16 row tiles by 43 hidden blocks, row-major; at a point t the hidden block is k = t % 43.
  The body has three control cases: at k = 0 it first zeroes the output tile and the small
  accumulator; at every k it adds the block's contribution to both; at k = 42 it then adds the
  low-rank term to the output tile.  Each case is run once, on any whole buffers: the inputs at
  given contents, the output tile and the accumulator at what the point before left (at anything
  where the case overwrites them first), and the run yields the list of pieces each of the two
  ends with.  Nothing here depends on the float instance.
-/
import proofs.«127141_j13503377178799_2_alg».proof.Proof.Gen.KernelIdeal.Launch
import proofs.«127141_j13503377178799_2_alg».proof.Proof.Gen.KernelIdeal.Skeleton
import proofs.«127141_j13503377178799_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The body's first branch is taken when the hidden block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- The body's second branch is taken when the hidden block is the last. -/
abbrev cond1_1 (i : grid1.Coords) : Prop := (Scalar.cmpi .ne (Scalar.extui (Scalar.cmpi .eq (BitVec.ofNat 32 (i 1).val) 42#32)) 0#32) = 1#1
theorem hcond1_1 : ∀ t : Fin cfg1.N, cond1_1 (grid1.coords t) ↔ t.val % 43 = 42 :=
  (by decide +kernel : ∀ t : Fin grid1.N, cond1_1 (grid1.coords t) ↔ t.val % 43 = 42)

/-- The output window is live at every point: every case stores into it. -/
theorem liveAt1_4 : ∀ t : Fin cfg1.N, cfg1.idle 4 (grid1.coords t) = false := by decide +kernel

/-! ## The buffers the body is called with -/

/-- One staging buffer of the output window, through which its contents are stated. -/
abbrev VO1_4 : View sig .tc .vmem S512x4096 .f32 := (Memref.whole cc1_stg4_0 : Memref sig .tc .vmem S512x4096 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x16 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The small accumulator: a whole scoped buffer of the kernel's own. -/
abbrev scM1_0 : Memref sig .tc .vmem S512x16 .f32 := Memref.whole cc1_scratch0
abbrev VS1_0 : View sig .tc .vmem S512x16 .f32 := scM1_0.view

/-- The class invariant, conjunct by conjunct: the other launch's staging buffers at anything, the accumulator owned at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The three whole-body runs -/

set_option maxHeartbeats 4000000 in
/-- CASE A (first hidden block): the output tile and the accumulator are overwritten with zeros first, so they are
    taken at anything; the pieces each ends with are the run's witness. -/
noncomputable def kernelRun1_A (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    Σ' (L4 : List (View.Piece (Elt F) S512x4096 .f32)), { LS0 : List (View.Piece (Elt F) S512x16 .f32) //
      ∀ (xi3 : Vec F S4096x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 4000000 in
/-- CASE B (a middle hidden block): the output tile and the accumulator are read before they are overwritten, so they are
    taken at what the point before left, xo4 and xs0. -/
noncomputable def kernelRun1_B (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    Σ' (L4 : List (View.Piece (Elt F) S512x4096 .f32)), { LS0 : List (View.Piece (Elt F) S512x16 .f32) //
      ∀ (xi3 : Vec F S4096x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 4000000 in
/-- CASE C (the last hidden block): as case B, and the adapter's up-projection x3 is read for the low-rank term. -/
noncomputable def kernelRun1_C (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output tile's buffer and in the accumulator -/

/-- Case A's pieces for the output tile cover it. -/
theorem cover1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S512x4096.size (by sl_kernel_rfl) y

/-- What case A leaves in the output tile's staging buffer: its pieces read back over junk. -/
def out1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk (kernelRun1_A c i arg2 harg2 arg3 harg3 arg4 harg4 arg5 harg5 arg6 harg6 arg7 harg7 hc0 hc1 x0 x1 x2).1)

/-- Case A's pieces for the accumulator cover it. -/
theorem scover1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x16.size (by sl_kernel_rfl) y

/-- What case A leaves in the accumulator: its pieces read back over junk. -/
def sout1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case B's pieces for the output tile cover it. -/
theorem cover1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x4096.Idx) :
    ∃ pc ∈ (kernelRun1_B c i arg2 harg2 arg3 harg3 arg4 harg4 arg5 harg5 arg6 harg6 arg7 harg7 hc0 hc1 x0 x1 x2 xo4 xs0).1, y ∈ pc.1.set :=
  View.cover_of_tiledL (kernelRun1_B c i arg2 harg2 arg3 harg3 arg4 harg4 arg5 harg5 arg6 harg6 arg7 harg7 hc0 hc1 x0 x1 x2 xo4 xs0).1 S512x4096.size (by sl_kernel_rfl) y

/-- What case B leaves in the output tile's staging buffer: its pieces read back over junk. -/
def out1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x4096 .f32 :=
  VO1_4.read (Elt F) (VO1_4.writes (Elt F) VO1_4.junk (kernelRun1_B c i arg2 harg2 arg3 harg3 arg4 harg4 arg5 harg5 arg6 harg6 arg7 harg7 hc0 hc1 x0 x1 x2 xo4 xs0).1)

/-- Case B's pieces for the accumulator cover it. -/
theorem scover1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x16.Idx) :
    ∃ pc ∈ (kernelRun1_B c i arg2 harg2 arg3 harg3 arg4 harg4 arg5 harg5 arg6 harg6 arg7 harg7 hc0 hc1 x0 x1 x2 xo4 xs0).2.1, y ∈ pc.1.set :=
  View.cover_of_tiledL (kernelRun1_B c i arg2 harg2 arg3 harg3 arg4 harg4 arg5 harg5 arg6 harg6 arg7 harg7 hc0 hc1 x0 x1 x2 xo4 xs0).2.1 S512x16.size (by sl_kernel_rfl) y

/-- What case B leaves in the accumulator: its pieces read back over junk. -/
def sout1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x16 .f32 :=
  VS1_0.read (Elt F) (VS1_0.writes (Elt F) VS1_0.junk (kernelRun1_B c i arg2 harg2 arg3 harg3 arg4 harg4 arg5 harg5 arg6 harg6 arg7 harg7 hc0 hc1 x0 x1 x2 xo4 xs0).2.1)

/-- Case C's pieces for the output tile cover it. -/
theorem cover1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) (y : S512x4096.Idx) :
    ∃ pc ∈ (kernelRun1_C c i arg2 harg2 arg3 harg3 arg4 harg4 arg5 harg5 arg6 harg6 arg7 harg7 hc0 hc1 x0 x1 x2 x3 xo4 xs0).1, y ∈ pc.1.set :=
  View.cover_of_tiledL (kernelRun1_C c i arg2 harg2 arg3 harg3 arg4 harg4 arg5 harg5 arg6 harg6 arg7 harg7 hc0 hc1 x0 x1 x2 x3 xo4 xs0).1 S512x4096.size (by sl_kernel_rfl) y

/-- What case C leaves in the output tile's staging buffer: its pieces read back over junk. -/
def out1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) : Vec F S512x4096 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4 xs0).1)

/-- Case C's pieces for the accumulator cover it. -/
theorem scover1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) (y : S512x16.Idx) :
    ∃ pc ∈ (kernelRun1_C c i arg2 harg2 arg3 harg3 arg4 harg4 arg5 harg5 arg6 harg6 arg7 harg7 hc0 hc1 x0 x1 x2 x3 xo4 xs0).2.1, y ∈ pc.1.set :=
  View.cover_of_tiledL (kernelRun1_C c i arg2 harg2 arg3 harg3 arg4 harg4 arg5 harg5 arg6 harg6 arg7 harg7 hc0 hc1 x0 x1 x2 x3 xo4 xs0).2.1 S512x16.size (by sl_kernel_rfl) y

/-- What case C leaves in the accumulator: its pieces read back over junk. -/
def sout1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) : Vec F S512x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xo4 xs0).2.1)

end Cert.KernelIdeal.Hand

end
-- ==== Proof.KI.R1.lean ====
/-
  Region 1 (the down projection's launch), second half: what its buffers hold point by point, and
  the body obligation.

  Along a row tile's 43 hidden blocks the output tile stays in one staging buffer (it is written
  back only after the last block) and the small accumulator stays in its scratch buffer: after
  point t both hold what the case of t leaves, computed from the point's input blocks and, except at
  a first block, from what point t - 1 left.  The region invariant records the accumulator's
  contents between points; before the first point and after the last it is the plain one.
-/
import proofs.«127141_j13503377178799_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What the output tile's buffer and the accumulator hold after each point -/

/-- After the body at position n: the output tile's staging buffer, then the accumulator. -/
def outsAt1 (c : Dev nD) : (n : ℕ) → n < cfg1.N → Vec F S512x4096 .f32 × Vec F S512x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first hidden block: case A's contents. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle hidden block: case B's contents, over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last hidden block: case C's contents, over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents between points -/

/-- Before position n: at the start the plain class invariant (the accumulator at anything); afterwards the other
    launch's staging buffers at anything, the accumulator at what the point before left, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block, the output tile's
    at the accumulation; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Away from a first hidden block the output tile's staging buffer holds what the body left at the point before: the
    buffer was not written back between. -/
theorem before1_4_kept (c : Dev nD) (t : Fin cfg1.N) (h0 : ¬t.val % 43 = 0) (d) :
    (dat1 V c).before 4 t d = (outsAt1 V c (t.val - 1) (Nat.lt_of_le_of_lt (Nat.sub_le _ _) t.isLt)).1 := by
  have hN : t.val < 688 := lt_of_lt_of_eq t.isLt (show cfg1.N = 688 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 8000000 in
/-- The body at any point: the inputs' buffers hold their blocks; the point's case is decided by t % 43; away from a first
    block the output tile's buffer and the accumulator hold what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 688 := lt_of_lt_of_eq t.isLt (show cfg1.N = 688 from N_1)
  by_cases h0 : t.val % 43 = 0
  · by_cases h1 : t.val % 43 = 42
    · exfalso; omega
    · rw [outsAt1_A V c t h0 h1]
      unfold out1_A_4 sout1_A_0; (try dsimp only)
      by_cases hz : t.val = 0
      · rw [PhiS_castSucc V c t, PhiS_zero V c _ _ hz, PhiA1_eq]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
  · by_cases h1 : t.val % 43 = 42
    · simp only [before1_4_kept V c t h0]
      rw [outsAt1_C V c t h0 h1]
      unfold out1_C_4 sout1_C_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ _).2.2 Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_C_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _)
    · simp only [before1_4_kept V c t h0]
      rw [outsAt1_B V c t h0 h1]
      unfold out1_B_4 sout1_B_0; (try dsimp only)
      by_cases hz : t.val = 0
      · exfalso; omega
      · rw [PhiS_castSucc V c t, PhiS_pos V c _ _ hz]
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_B_4 c _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HR14, HR15, HS0⟩, Hg⟩
  isplitl [HR0 HR1 HR2 HR3 HR4 HR5 HR6 HR7 HR8 HR9 HR10 HR11 HR12 HR13 HR14 HR15 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexists _; iexact HS0
  iexact Hg

theorem hout1 (c : Dev nD) : (dat1 V c).Φ (Fin.last cfg1.N) ⊢ Pipeline.ΦA spec1 c :=
  Phi_out1 V c _ (by rw [Fin.val_last]; have : cfg1.N = 688 := N_1; omega)

end Region1

end Cert.KernelIdeal.Hand

end
-- ==== Proof.KI.Run.lean ====
/- THE RUN of @main from the launch to the return, at any float interpretation: a host stretch, two kernel
   regions back to back, a host stretch. The buffer contents at each boundary are a fold from the launch memory (a
   stretch's `StableHlo.after`; a region's arrays at what its write-backs leave, every other buffer as entered); each
   argument array read back through the fold holds its launch contents; the four segments chain over the thread state
   "every unscoped buffer at the boundary's contents, the generator register at some state, nothing owed". -/
import proofs.«127141_j13503377178799_2_alg».proof.Proof.Gen.KernelIdeal.Launch
import proofs.«127141_j13503377178799_2_alg».proof.Proof.Gen.KernelIdeal.Skeleton
import proofs.«127141_j13503377178799_2_alg».proof.Proof.Gen.KernelIdeal.Points
import proofs.«127141_j13503377178799_2_alg».proof.Proof.Gen.KernelIdeal.Regions
import proofs.«127141_j13503377178799_2_alg».proof.Proof.KI.R0
import proofs.«127141_j13503377178799_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents, which region 1 is entered from. -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the launch reads at the end. -/
abbrev W4 : Dev nD → Valuation τ sig (Elt F) := fun c => StableHlo.after hostOps2 (W3 m ρ c)

/-! ### The arguments end as launched: no host operation writes one and none is a window's array of either region,
    so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the last host stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2` (what region 1 is
    entered from). Its arrays split out of the unscoped buffers and put back at the exit contents; the generator
    register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the last host
    stretch is entered from). Its invariant is the region's own (the carried scratch at the running contents): the
    generator register and the scoped rest enter it at the first point and leave it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: the first host stretch from the launch contents, the two regions, the last host
    stretch from region 1's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN, at any post that follows from the last boundary's contents: at the compiled mesh, from any memory with
    zero counters, every weakly fair execution of @main on the TensorCores terminates, nothing faulting, and every
    final memory holds each unscoped buffer at `W4` — the launch over the segments, the last thread state read against
    the final state. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- Every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  run_post m ρ fun _ h => h

/-- THE FRAME, at any float interpretation: every weakly fair execution of @main terminates, nothing faulting, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩

end Cert.KernelIdeal.Hand

end
-- ==== Proof.Val.Spec.lean ====
/-
  The specification of the two programs' common result, over the extended reals.

  A SwiGLU feed-forward block with rank-16 adapters on each of its three linear maps.  With rows
  p (8192 of them: 4 batches of 2048 positions, row-major), model width 4096, hidden width 11008
  and the adapter scale two:
    hlinK X W XA B p h = (∑ d, X p d · W h d) + (∑ r, XA p r · B h r) · two     (a linear map plus its adapter),
    gateK … p h        = (h₁ · logistic h₁) · h₃                                (the gated activation),
    outK G W₂ A₂ B₂ p o = (∑ h, G p h · W₂ o h) + (∑ r, (∑ h, G p h · A₂ r h) · B₂ o r) · two,
  xaK is an adapter's down-projection, flatX / unflat pass between the [4, 2048, ·] and the
  [8192, ·] arrangement of the rows.  Nothing here mentions a program.
-/
import Idealize.ShloMosaic.PureOps.Ideal
import Idealize.ShloMosaic.Lib.ValueIdx

noncomputable section

namespace Cert.Spec

open Idealize.ShloMosaic Idealize.ShloMosaic.ValueIdx

/-- A two-axis array of extended reals. -/
abbrev Arr2 (a b : ℕ) : Type := (⟨2, ![a, b]⟩ : Shape).Idx → EReal
/-- A three-axis array of extended reals. -/
abbrev Arr3 (a b c : ℕ) : Type := (⟨3, ![a, b, c]⟩ : Shape).Idx → EReal

/-- The adapter scale, kept as the word both programs print (2.0). -/
def two : EReal := Ideal.ofBits .f32 0x40000000#32

/-- A linear map with its adapter at row p, output feature h. -/
def hlinK (X : Arr2 8192 4096) (W : Arr2 11008 4096) (XA : Arr2 8192 16) (B : Arr2 11008 16)
    (p : Fin 8192) (h : Fin 11008) : EReal :=
  (∑ d : Fin 4096, X (ix2 p d) * W (ix2 h d)) + (∑ r : Fin 16, XA (ix2 p r) * B (ix2 h r)) * two

/-- The gated activation: silu of the first map times the second. -/
def gateK (X : Arr2 8192 4096) (W1 : Arr2 11008 4096) (XA1 : Arr2 8192 16) (B1 : Arr2 11008 16)
    (W3 : Arr2 11008 4096) (XA3 : Arr2 8192 16) (B3 : Arr2 11008 16) (p : Fin 8192) (h : Fin 11008) : EReal :=
  (hlinK X W1 XA1 B1 p h * Ideal.logistic (hlinK X W1 XA1 B1 p h)) * hlinK X W3 XA3 B3 p h

/-- The down projection with its adapter at row p, output feature o. -/
def outK (G : Arr2 8192 11008) (W2 : Arr2 4096 11008) (A2 : Arr2 16 11008) (B2 : Arr2 4096 16)
    (p : Fin 8192) (o : Fin 4096) : EReal :=
  (∑ h : Fin 11008, G (ix2 p h) * W2 (ix2 o h))
    + (∑ r : Fin 16, (∑ h : Fin 11008, G (ix2 p h) * A2 (ix2 r h)) * B2 (ix2 o r)) * two

/-- An adapter's down-projection of the rows. -/
def xaK (X : Arr2 8192 4096) (A : Arr2 16 4096) : Arr2 8192 16 :=
  fun j => ∑ d : Fin 4096, X (ix2 (j 0) d) * A (ix2 (j 1) d)

theorem flat_div_lt (p : Fin 8192) : p.val / 2048 < 4 := by omega
theorem flat_mod_lt (p : Fin 8192) : p.val % 2048 < 2048 := by omega
theorem unflat_lt (b : Fin 4) (s : Fin 2048) : b.val * 2048 + s.val < 8192 := by omega

/-- Row p of the flattened arrangement is batch p / 2048, position p % 2048. -/
def flatX (x : Arr3 4 2048 4096) : Arr2 8192 4096 :=
  fun j => x (ix3 ⟨(j 0).val / 2048, flat_div_lt (j 0)⟩ ⟨(j 0).val % 2048, flat_mod_lt (j 0)⟩ (j 1))

/-- Batch b, position s is row b · 2048 + s. -/
def unflat (y : Arr2 8192 4096) : Arr3 4 2048 4096 :=
  fun i => y (ix2 ⟨(i 0).val * 2048 + (i 1).val, unflat_lt (i 0) (i 1)⟩ (i 2))

/-- The whole block: the result array as ONE function of the ten argument arrays, in the
    [4, 2048, 4096] arrangement both programs return. -/
def resultOf (x : Arr3 4 2048 4096) (w1 w3 : Arr2 11008 4096) (w2 : Arr2 4096 11008) (a1 : Arr2 16 4096)
    (b1 : Arr2 11008 16) (a3 : Arr2 16 4096) (b3 : Arr2 11008 16) (a2 : Arr2 16 11008) (b2 : Arr2 4096 16) :
    Arr3 4 2048 4096 :=
  unflat (fun j => outK (fun j' => gateK (flatX x) w1 (xaK (flatX x) a1) b1 w3 (xaK (flatX x) a3) b3 (j' 0) (j' 1))
    w2 a2 b2 (j 0) (j 1))

end Cert.Spec

end
-- ==== Proof.Val.R0Payload.lean ====
/-
  The value region 0 stores, read at one element of a block.

  The stored block is a gated product: with x0 a block of rows, x1 and x2 blocks of the two weight
  matrices' rows, x3 / x5 the rows' adapter projections and x4 / x6 the adapters' up-projections,
  element (p, q) of the stored block is (h₁ · logistic h₁) · h₃ where
    h₁ = (∑ d, x0 p d · x1 q d) + (∑ r, x3 p r · x4 q r) · two
  and h₃ is the same over x2, x5, x6.  Each product into a zero accumulator is the plain sum over
  the contracted axis, a transposed operand is read with its coordinates swapped, a cast to the
  same shape and a format change are the identity on extended reals.
-/
import proofs.«127141_j13503377178799_2_alg».proof.Proof.Gen.KernelIdeal.Skeleton
import proofs.«127141_j13503377178799_2_alg».proof.Proof.Val.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.SL.Sem Idealize.ShloMosaic.ValueIdx
open scoped BigOperators

/-! ## The two products at an element -/

theorem wide_lhs_0 (i : S1024x256.Idx) (k : dot_S1024x4096_S4096x256_S1024x256_1_0_0_1_n_n.contr.Idx) :
    (dot_S1024x4096_S4096x256_S1024x256_1_0_0_1_n_n.lhsIdx i k 0).val = (i 0).val := by
  unfold DotDims.lhsIdx
  rw [dif_neg (show ¬(0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  rfl
theorem wide_lhs_1 (i : S1024x256.Idx) (k : dot_S1024x4096_S4096x256_S1024x256_1_0_0_1_n_n.contr.Idx) :
    (dot_S1024x4096_S4096x256_S1024x256_1_0_0_1_n_n.lhsIdx i k 1).val = (k ⟨0, by decide⟩).val :=
  dot_S1024x4096_S4096x256_S1024x256_1_0_0_1_n_n.lhsIdx_val_of_single rfl i k
theorem wide_rhs_0 (i : S1024x256.Idx) (k : dot_S1024x4096_S4096x256_S1024x256_1_0_0_1_n_n.contr.Idx) :
    (dot_S1024x4096_S4096x256_S1024x256_1_0_0_1_n_n.rhsIdx i k 0).val = (k ⟨0, by decide⟩).val :=
  dot_S1024x4096_S4096x256_S1024x256_1_0_0_1_n_n.rhsIdx_val_of_single rfl i k
theorem wide_rhs_1 (i : S1024x256.Idx) (k : dot_S1024x4096_S4096x256_S1024x256_1_0_0_1_n_n.contr.Idx) :
    (dot_S1024x4096_S4096x256_S1024x256_1_0_0_1_n_n.rhsIdx i k 1).val = (i 1).val := by
  unfold DotDims.rhsIdx
  rw [dif_neg (show ¬(1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  rfl

/-- The wide product: rows of `a` against rows of `b` (the second operand enters transposed), into the zero
    accumulator, is the sum over the 4096 shared columns. -/
theorem mm_wide (a : FVec Ideal S1024x4096 .bf16) (b : FVec Ideal S256x4096 .bf16) (p : Fin 1024) (q : Fin 256) :
    matmul dot_S1024x4096_S4096x256_S1024x256_1_0_0_1_n_n none a
        (transpose S4096x256 [1, 0] b Gen.transposes_S256x4096_p1_0_S4096x256)
        (constant S1024x256 .f32 0x00000000#32) (ix2 p q)
      = ∑ d : Fin 4096, a (ix2 p d) * b (ix2 q d) := by
  simp only [matmul]
  rw [Ideal.matmul_constant_zero_apply,
    ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q)
      ((contrEquiv1 dot_S1024x4096_S4096x256_S1024x256_1_0_0_1_n_n 4096 rfl rfl).symm k) = ix2 p k :=
    funext fun c => Fin.ext (by
      match c with
      | ⟨0, _⟩ => exact wide_lhs_0 _ _
      | ⟨1, _⟩ => exact (wide_lhs_1 _ _).trans hk)
  have er : dot_S1024x4096_S4096x256_S1024x256_1_0_0_1_n_n.rhsIdx (ix2 p q)
      ((contrEquiv1 dot_S1024x4096_S4096x256_S1024x256_1_0_0_1_n_n 4096 rfl rfl).symm k) = ix2 k q :=
    funext fun c => Fin.ext (by
      match c with
      | ⟨0, _⟩ => exact (wide_rhs_0 _ _).trans hk
      | ⟨1, _⟩ => exact wide_rhs_1 _ _)
  rw [el, er]
  refine congrArg (a (ix2 p k) * ·) ?_
  exact transpose_apply _ b _ _ (ix2 q k) fun c => match c with | ⟨0, _⟩ => rfl | ⟨1, _⟩ => rfl

theorem thin_lhs_0 (i : S1024x256.Idx) (k : dot_S1024x16_S16x256_S1024x256_1_0_0_1_n_n.contr.Idx) :
    (dot_S1024x16_S16x256_S1024x256_1_0_0_1_n_n.lhsIdx i k 0).val = (i 0).val := by
  unfold DotDims.lhsIdx
  rw [dif_neg (show ¬(0 : Fin S1024x16.rank) ∈ dot_S1024x16_S16x256_S1024x256_1_0_0_1_n_n.lhsBatch by decide),
    dif_pos (show (0 : Fin S1024x16.rank) ∈ dot_S1024x16_S16x256_S1024x256_1_0_0_1_n_n.lhsNonContracting by decide)]
  rfl
theorem thin_lhs_1 (i : S1024x256.Idx) (k : dot_S1024x16_S16x256_S1024x256_1_0_0_1_n_n.contr.Idx) :
    (dot_S1024x16_S16x256_S1024x256_1_0_0_1_n_n.lhsIdx i k 1).val = (k ⟨0, by decide⟩).val :=
  dot_S1024x16_S16x256_S1024x256_1_0_0_1_n_n.lhsIdx_val_of_single rfl i k
theorem thin_rhs_0 (i : S1024x256.Idx) (k : dot_S1024x16_S16x256_S1024x256_1_0_0_1_n_n.contr.Idx) :
    (dot_S1024x16_S16x256_S1024x256_1_0_0_1_n_n.rhsIdx i k 0).val = (k ⟨0, by decide⟩).val :=
  dot_S1024x16_S16x256_S1024x256_1_0_0_1_n_n.rhsIdx_val_of_single rfl i k
theorem thin_rhs_1 (i : S1024x256.Idx) (k : dot_S1024x16_S16x256_S1024x256_1_0_0_1_n_n.contr.Idx) :
    (dot_S1024x16_S16x256_S1024x256_1_0_0_1_n_n.rhsIdx i k 1).val = (i 1).val := by
  unfold DotDims.rhsIdx
  rw [dif_neg (show ¬(1 : Fin S16x256.rank) ∈ dot_S1024x16_S16x256_S1024x256_1_0_0_1_n_n.rhsBatch by decide),
    dif_pos (show (1 : Fin S16x256.rank) ∈ dot_S1024x16_S16x256_S1024x256_1_0_0_1_n_n.rhsNonContracting by decide)]
  rfl

/-- The thin product, over the 16 adapter columns: the same statement. -/
theorem mm_thin (a : FVec Ideal S1024x16 .bf16) (b : FVec Ideal S256x16 .bf16) (p : Fin 1024) (q : Fin 256) :
    matmul dot_S1024x16_S16x256_S1024x256_1_0_0_1_n_n none a
        (transpose S16x256 [1, 0] b Gen.transposes_S256x16_p1_0_S16x256)
        (constant S1024x256 .f32 0x00000000#32) (ix2 p q)
      = ∑ d : Fin 16, a (ix2 p d) * b (ix2 q d) := by
  simp only [matmul]
  rw [Ideal.matmul_constant_zero_apply,
    ← Equiv.sum_comp (contrEquiv1 dot_S1024x16_S16x256_S1024x256_1_0_0_1_n_n 16 rfl rfl).symm]
  refine Finset.sum_congr rfl fun k _ => ?_
  have hk := contrEquiv1_symm_val dot_S1024x16_S16x256_S1024x256_1_0_0_1_n_n 16 rfl rfl k
  have el : dot_S1024x16_S16x256_S1024x256_1_0_0_1_n_n.lhsIdx (ix2 p q)
      ((contrEquiv1 dot_S1024x16_S16x256_S1024x256_1_0_0_1_n_n 16 rfl rfl).symm k) = ix2 p k :=
    funext fun c => Fin.ext (by
      match c with
      | ⟨0, _⟩ => exact thin_lhs_0 _ _
      | ⟨1, _⟩ => exact (thin_lhs_1 _ _).trans hk)
  have er : dot_S1024x16_S16x256_S1024x256_1_0_0_1_n_n.rhsIdx (ix2 p q)
      ((contrEquiv1 dot_S1024x16_S16x256_S1024x256_1_0_0_1_n_n 16 rfl rfl).symm k) = ix2 k q :=
    funext fun c => Fin.ext (by
      match c with
      | ⟨0, _⟩ => exact (thin_rhs_0 _ _).trans hk
      | ⟨1, _⟩ => exact thin_rhs_1 _ _)
  rw [el, er]
  refine congrArg (a (ix2 p k) * ·) ?_
  exact transpose_apply _ b _ _ (ix2 q k) fun c => match c with | ⟨0, _⟩ => rfl | ⟨1, _⟩ => rfl

/-! ## The stored block at an element -/

/-- A linear map with its adapter, on blocks: rows `p` of `x` and `xa`, rows `q` of `w` and `bb`. -/
def hlinB (x : FVec Ideal S1024x4096 .bf16) (w : FVec Ideal S256x4096 .bf16) (xa : FVec Ideal S1024x16 .bf16)
    (bb : FVec Ideal S256x16 .bf16) (p : Fin 1024) (q : Fin 256) : EReal :=
  (∑ d : Fin 4096, x (ix2 p d) * w (ix2 q d)) + (∑ r : Fin 16, xa (ix2 p r) * bb (ix2 q r)) * Cert.Spec.two

/-- Element (p, q) of the block region 0 stores is the gated product of the two linear maps. -/
theorem k0_pay1_apply (x0 : FVec Ideal S1024x4096 .bf16) (x1 x2 : FVec Ideal S256x4096 .bf16)
    (x3 : FVec Ideal S1024x16 .bf16) (x4 : FVec Ideal S256x16 .bf16) (x5 : FVec Ideal S1024x16 .bf16)
    (x6 : FVec Ideal S256x16 .bf16) (p : Fin 1024) (q : Fin 256) :
    Gen.k0_pay1 (F := Ideal) x0 x1 x2 x3 x4 x5 x6 (ix2 p q)
      = (hlinB x0 x1 x3 x4 p q * Ideal.logistic (hlinB x0 x1 x3 x4 p q)) * hlinB x0 x2 x5 x6 p q := by
  unfold Gen.k0_pay1
  simp only [shapeCast_self]
  simp only [truncf_apply, mulf_apply, addf_apply, broadcast_apply, Idealize.ShloMosaic.logistic,
    Ideal.logistic_def]
  rw [mm_wide, mm_thin, mm_wide, mm_thin]
  rfl

end Cert.KernelIdeal.Val

end
-- ==== Proof.Val.R0Value.lean ====
/-
  The array region 0 leaves: the gated activation of the region's seven input arrays.

  Region 0 runs over an 8 × 43 grid; point t = i·43 + j stores block (i, j), of 1024 rows by 256 columns, of the
  output.  The three row inputs (the rows and their two adapter projections) are read at row block i, the four
  column inputs (two weight matrices and two adapter up-projections, all stored by output feature) at row block j;
  every input block spans its array's full width.  So element (p, q) of the stored block is the gate at array row
  i·1024 + p and feature j·256 + q, and as the 344 blocks tile the 8192 × 11008 array it ends holding the gate of
  the input arrays at every index.
-/
import proofs.«127141_j13503377178799_2_alg».proof.Proof.KI.R0
import proofs.«127141_j13503377178799_2_alg».proof.Proof.Val.R0Payload
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits -/

/-- The index maps, decided over the grid: point t = i·43 + j has output block (i, j); the row windows move with
    i, the column windows with j, each at column block 0. -/
theorem idx_facts0 : ∀ t : Fin cfg0.N,
    win0_7.index t (0 : Fin 2) = t.val / 43 ∧ win0_7.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val / 43 ∧ win0_3.index t (1 : Fin 2) = 0
    ∧ win0_4.index t (0 : Fin 2) = t.val % 43 ∧ win0_4.index t (1 : Fin 2) = 0
    ∧ win0_5.index t (0 : Fin 2) = t.val / 43 ∧ win0_5.index t (1 : Fin 2) = 0
    ∧ win0_6.index t (0 : Fin 2) = t.val % 43 ∧ win0_6.index t (1 : Fin 2) = 0 :=
  (by decide +kernel : ∀ t : Fin grid0.N, _)

/-! ## An input block's element is its array's, at the block's row offset

Row p, column d of window K's block at point t is the array at row (block index)·(block rows) + p, column d: the
block's column index is 0 and it spans the array's width. -/

theorem iblk0_0_apply (c : Dev nD) (t : Fin cfg0.N) (p : Fin 1024) (d : Fin 4096) (P : Fin 8192)
    (hP : P.val = win0_0.index t (0 : Fin 2) * 1024 + p.val) (h1 : win0_0.index t (1 : Fin 2) = 0) :
    (Hand.iblk0 V c 0 t : FVec Ideal S1024x4096 .bf16) (ix2 p d) = (V c main_v1 : Cert.Spec.Arr2 8192 4096) (ix2 P d) := by
  unfold Hand.iblk0
  rw [View.read_apply]
  show V c main_v1 _ = V c main_v1 _
  congr 1
  funext a
  apply Fin.ext
  match a with
  | ⟨0, _⟩ => show win0_0.index t (0 : Fin 2) * 1024 + 1 * p.val = P.val; omega
  | ⟨1, _⟩ => show win0_0.index t (1 : Fin 2) * 4096 + 1 * d.val = d.val; rw [h1]; omega

theorem iblk0_1_apply (c : Dev nD) (t : Fin cfg0.N) (p : Fin 256) (d : Fin 4096) (P : Fin 11008)
    (hP : P.val = win0_1.index t (0 : Fin 2) * 256 + p.val) (h1 : win0_1.index t (1 : Fin 2) = 0) :
    (Hand.iblk0 V c 1 t : FVec Ideal S256x4096 .bf16) (ix2 p d) = (V c main_v2 : Cert.Spec.Arr2 11008 4096) (ix2 P d) := by
  unfold Hand.iblk0
  rw [View.read_apply]
  show V c main_v2 _ = V c main_v2 _
  congr 1
  funext a
  apply Fin.ext
  match a with
  | ⟨0, _⟩ => show win0_1.index t (0 : Fin 2) * 256 + 1 * p.val = P.val; omega
  | ⟨1, _⟩ => show win0_1.index t (1 : Fin 2) * 4096 + 1 * d.val = d.val; rw [h1]; omega

theorem iblk0_2_apply (c : Dev nD) (t : Fin cfg0.N) (p : Fin 256) (d : Fin 4096) (P : Fin 11008)
    (hP : P.val = win0_2.index t (0 : Fin 2) * 256 + p.val) (h1 : win0_2.index t (1 : Fin 2) = 0) :
    (Hand.iblk0 V c 2 t : FVec Ideal S256x4096 .bf16) (ix2 p d) = (V c main_v3 : Cert.Spec.Arr2 11008 4096) (ix2 P d) := by
  unfold Hand.iblk0
  rw [View.read_apply]
  show V c main_v3 _ = V c main_v3 _
  congr 1
  funext a
  apply Fin.ext
  match a with
  | ⟨0, _⟩ => show win0_2.index t (0 : Fin 2) * 256 + 1 * p.val = P.val; omega
  | ⟨1, _⟩ => show win0_2.index t (1 : Fin 2) * 4096 + 1 * d.val = d.val; rw [h1]; omega

theorem iblk0_3_apply (c : Dev nD) (t : Fin cfg0.N) (p : Fin 1024) (d : Fin 16) (P : Fin 8192)
    (hP : P.val = win0_3.index t (0 : Fin 2) * 1024 + p.val) (h1 : win0_3.index t (1 : Fin 2) = 0) :
    (Hand.iblk0 V c 3 t : FVec Ideal S1024x16 .bf16) (ix2 p d) = (V c main_v13 : Cert.Spec.Arr2 8192 16) (ix2 P d) := by
  unfold Hand.iblk0
  rw [View.read_apply]
  show V c main_v13 _ = V c main_v13 _
  congr 1
  funext a
  apply Fin.ext
  match a with
  | ⟨0, _⟩ => show win0_3.index t (0 : Fin 2) * 1024 + 1 * p.val = P.val; omega
  | ⟨1, _⟩ => show win0_3.index t (1 : Fin 2) * 16 + 1 * d.val = d.val; rw [h1]; omega

theorem iblk0_4_apply (c : Dev nD) (t : Fin cfg0.N) (p : Fin 256) (d : Fin 16) (P : Fin 11008)
    (hP : P.val = win0_4.index t (0 : Fin 2) * 256 + p.val) (h1 : win0_4.index t (1 : Fin 2) = 0) :
    (Hand.iblk0 V c 4 t : FVec Ideal S256x16 .bf16) (ix2 p d) = (V c main_v6 : Cert.Spec.Arr2 11008 16) (ix2 P d) := by
  unfold Hand.iblk0
  rw [View.read_apply]
  show V c main_v6 _ = V c main_v6 _
  congr 1
  funext a
  apply Fin.ext
  match a with
  | ⟨0, _⟩ => show win0_4.index t (0 : Fin 2) * 256 + 1 * p.val = P.val; omega
  | ⟨1, _⟩ => show win0_4.index t (1 : Fin 2) * 16 + 1 * d.val = d.val; rw [h1]; omega

theorem iblk0_5_apply (c : Dev nD) (t : Fin cfg0.N) (p : Fin 1024) (d : Fin 16) (P : Fin 8192)
    (hP : P.val = win0_5.index t (0 : Fin 2) * 1024 + p.val) (h1 : win0_5.index t (1 : Fin 2) = 0) :
    (Hand.iblk0 V c 5 t : FVec Ideal S1024x16 .bf16) (ix2 p d) = (V c main_v16 : Cert.Spec.Arr2 8192 16) (ix2 P d) := by
  unfold Hand.iblk0
  rw [View.read_apply]
  show V c main_v16 _ = V c main_v16 _
  congr 1
  funext a
  apply Fin.ext
  match a with
  | ⟨0, _⟩ => show win0_5.index t (0 : Fin 2) * 1024 + 1 * p.val = P.val; omega
  | ⟨1, _⟩ => show win0_5.index t (1 : Fin 2) * 16 + 1 * d.val = d.val; rw [h1]; omega

theorem iblk0_6_apply (c : Dev nD) (t : Fin cfg0.N) (p : Fin 256) (d : Fin 16) (P : Fin 11008)
    (hP : P.val = win0_6.index t (0 : Fin 2) * 256 + p.val) (h1 : win0_6.index t (1 : Fin 2) = 0) :
    (Hand.iblk0 V c 6 t : FVec Ideal S256x16 .bf16) (ix2 p d) = (V c main_v8 : Cert.Spec.Arr2 11008 16) (ix2 P d) := by
  unfold Hand.iblk0
  rw [View.read_apply]
  show V c main_v8 _ = V c main_v8 _
  congr 1
  funext a
  apply Fin.ext
  match a with
  | ⟨0, _⟩ => show win0_6.index t (0 : Fin 2) * 256 + 1 * p.val = P.val; omega
  | ⟨1, _⟩ => show win0_6.index t (1 : Fin 2) * 16 + 1 * d.val = d.val; rw [h1]; omega

/-! ## The stored block's element is the gate at the element's place in the array -/

/-- If the seven blocks hold rows P of the row arrays (at block row p) and rows Q of the column arrays (at block
    row q), element (p, q) of the stored block is the gate at (P, Q). -/
theorem gate_block (X : Cert.Spec.Arr2 8192 4096) (W1 : Cert.Spec.Arr2 11008 4096) (XA1 : Cert.Spec.Arr2 8192 16)
    (B1 : Cert.Spec.Arr2 11008 16) (W3 : Cert.Spec.Arr2 11008 4096) (XA3 : Cert.Spec.Arr2 8192 16) (B3 : Cert.Spec.Arr2 11008 16)
    (x0 : FVec Ideal S1024x4096 .bf16) (x1 x2 : FVec Ideal S256x4096 .bf16) (x3 : FVec Ideal S1024x16 .bf16)
    (x4 : FVec Ideal S256x16 .bf16) (x5 : FVec Ideal S1024x16 .bf16) (x6 : FVec Ideal S256x16 .bf16)
    (P : Fin 8192) (Q : Fin 11008) (p : Fin 1024) (q : Fin 256)
    (h0 : ∀ d, x0 (ix2 p d) = X (ix2 P d)) (h1 : ∀ d, x1 (ix2 q d) = W1 (ix2 Q d)) (h2 : ∀ d, x2 (ix2 q d) = W3 (ix2 Q d))
    (h3 : ∀ r, x3 (ix2 p r) = XA1 (ix2 P r)) (h4 : ∀ r, x4 (ix2 q r) = B1 (ix2 Q r))
    (h5 : ∀ r, x5 (ix2 p r) = XA3 (ix2 P r)) (h6 : ∀ r, x6 (ix2 q r) = B3 (ix2 Q r)) :
    Gen.k0_pay1 (F := Ideal) x0 x1 x2 x3 x4 x5 x6 (ix2 p q) = Cert.Spec.gateK X W1 XA1 B1 W3 XA3 B3 P Q := by
  rw [k0_pay1_apply]
  unfold hlinB Cert.Spec.gateK Cert.Spec.hlinK
  simp only [h0, h1, h2, h3, h4, h5, h6]

/-- The gate of the arrays the region finds, index by index. -/
abbrev G7 (c : Dev nD) : S8192x11008.Idx → EReal := fun j =>
  Cert.Spec.gateK (V c main_v1) (V c main_v2) (V c main_v13) (V c main_v6) (V c main_v3) (V c main_v16) (V c main_v8) (j 0) (j 1)

/-- What point t writes back is block t of the gate array. -/
theorem flushed7_eq (c : Dev nD) (t : Fin cfg0.N) :
    (Hand.dat0 V c).flushed 7 t = ((cfg0.win 7).blk t).view.read (Elt Ideal) (G7 V c) := by
  show (cfg0.win 7).cut (grid0.coords t) ((Hand.dat0 V c).after 7 t) = _
  rw [Hand.after0_7]
  unfold Hand.out0_7
  rw [View.canon_unit_zero hz]
  simp only [View.ld_unit_zero (S := S1024x4096) hz, View.ld_unit_zero (S := S256x4096) hz,
    View.ld_unit_zero (S := S1024x16) hz, View.ld_unit_zero (S := S256x16) hz]
  obtain ⟨e70, e71, e00, e01, e10, e11, e20, e21, e30, e31, e40, e41, e50, e51, e60, e61⟩ := idx_facts0 t
  have hN : cfg0.N = 344 := Gen.N_0
  have ht : t.val < 344 := hN ▸ t.isLt
  funext j
  have hj0 : (j 0).val < 1024 := (j 0).isLt
  have hj1 : (j 1).val < 256 := (j 1).isLt
  obtain ⟨p, hp⟩ : ∃ p : Fin 1024, p.val = (j 0).val := ⟨⟨_, hj0⟩, rfl⟩
  obtain ⟨q, hq⟩ : ∃ q : Fin 256, q.val = (j 1).val := ⟨⟨_, hj1⟩, rfl⟩
  obtain ⟨P, hP⟩ : ∃ P : Fin 8192, P.val = win0_7.index t (0 : Fin 2) * 1024 + (j 0).val := ⟨⟨_, by omega⟩, rfl⟩
  obtain ⟨Q, hQ⟩ : ∃ Q : Fin 11008, Q.val = win0_7.index t (1 : Fin 2) * 256 + (j 1).val := ⟨⟨_, by omega⟩, rfl⟩
  show Gen.k0_pay1 (F := Ideal) _ _ _ _ _ _ _ ((win0 7).xinj (grid0.coords t) j) = G7 V c (((cfg0.win 7).blk t).view.emb j)
  rw [show (win0 7).xinj (grid0.coords t) j = ix2 p q from
        funext fun a => Fin.ext (by match a with
          | ⟨0, _⟩ => exact hp.symm
          | ⟨1, _⟩ => exact hq.symm),
    show ((cfg0.win 7).blk t).view.emb j = ix2 P Q from
        funext fun a => Fin.ext (by match a with
          | ⟨0, _⟩ => show win0_7.index t (0 : Fin 2) * 1024 + 1 * (j 0).val = P.val; omega
          | ⟨1, _⟩ => show win0_7.index t (1 : Fin 2) * 256 + 1 * (j 1).val = Q.val; omega)]
  exact gate_block _ _ _ _ _ _ _ _ _ _ _ _ _ _ P Q p q
    (fun d => iblk0_0_apply V c t p d P (by omega) e01)
    (fun d => iblk0_1_apply V c t q d Q (by omega) e11)
    (fun d => iblk0_2_apply V c t q d Q (by omega) e21)
    (fun r => iblk0_3_apply V c t p r P (by omega) e31)
    (fun r => iblk0_4_apply V c t q r Q (by omega) e41)
    (fun r => iblk0_5_apply V c t p r P (by omega) e51)
    (fun r => iblk0_6_apply V c t q r Q (by omega) e61)

/-! ## The blocks tile the array -/

/-- An index of the array is in point t's block iff each coordinate is in the block's range on its axis. -/
theorem mem_blk7 (t : Fin cfg0.N) (i : S8192x11008.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v17).slice (win0_7.rect t)).set ↔ _
  rw [View.set_slice_whole, Rect.mem_set_unit]
  exact Iff.rfl

/-- Array row P, feature Q is in the block of point (P / 1024)·43 + Q / 256, which writes back. -/
theorem cover7 (i : S8192x11008.Idx) :
    ∃ t : Fin cfg0.N, (cfg0.win 7).flush t = true ∧ i ∈ ((cfg0.win 7).blk t).view.set := by
  have hi0 : (i 0).val < 8192 := (i 0).isLt
  have hi1 : (i 1).val < 11008 := (i 1).isLt
  have hN : cfg0.N = 344 := Gen.N_0
  obtain ⟨t, ht⟩ : ∃ t : Fin cfg0.N, t.val = (i 0).val / 1024 * 43 + (i 1).val / 256 :=
    ⟨⟨_, hN ▸ (by omega : (i 0).val / 1024 * 43 + (i 1).val / 256 < 344)⟩, rfl⟩
  obtain ⟨e70, e71, -⟩ := idx_facts0 t
  refine ⟨t, Gen.flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 256 ≤ (i 1).val ∧ (i 1).val < win0_7.index t (1 : Fin 2) * 256 + 256
    omega

/-! ## The array after the region -/

/-- Region 0's output array ends holding the gate of the arrays the region finds. -/
theorem arr0_7 (c : Dev nD) :
    ((Hand.dat0 (F := Ideal) V c).arrAt 7 cfg0.N : S8192x11008.Idx → EReal) = fun j =>
      Cert.Spec.gateK (V c main_v1) (V c main_v2) (V c main_v13) (V c main_v6) (V c main_v3) (V c main_v16) (V c main_v8) (j 0) (j 1) :=
  (Hand.dat0 V c).arrAt_eq_of_cover 7 (G7 V c) (fun t _ => flushed7_eq V c t) cover7

end Cert.KernelIdeal.Val

end
-- ==== Proof.Val.R1Payload.lean ====
/-
  Region 1's payloads read at one index, over the extended reals.

  The down projection is accumulated block by block along the hidden axis.  At one point of the grid,
  with g a [512, 256] block of the gated activations, w a [4096, 256] block of the down weights,
  a a [16, 256] block of the adapter's first factor and b the [4096, 16] second factor:
    the reset blocks are zero;
    the output block o becomes      o p q + ∑ j, g p j · w q j ;
    the adapter's accumulator s     s p r + ∑ j, g p j · a r j ;
    and at the last block o becomes o p q + (∑ r, s p r · b q r) · two .
  Each matrix product is a product into a zero accumulator, so it is the plain sum over the
  contraction axis; the transposes only exchange the two coordinates; narrowing the accumulator to
  sixteen bits is the identity on extended reals.
-/
import proofs.«127141_j13503377178799_2_alg».proof.Proof.Gen.KernelIdeal.Skeleton
import proofs.«127141_j13503377178799_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The three matrix products' operand indices -/

theorem lhs0_dot_S512x256_S256x4096_S512x4096_1_0_0_1_n_n (i : S512x4096.Idx) (q : dot_S512x256_S256x4096_S512x4096_1_0_0_1_n_n.contr.Idx) : (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhs1_dot_S512x256_S256x4096_S512x4096_1_0_0_1_n_n (i : S512x4096.Idx) (q : dot_S512x256_S256x4096_S512x4096_1_0_0_1_n_n.contr.Idx) : (dot_S512x256_S256x4096_S512x4096_1_0_0_1_n_n.lhsIdx i q 1).val = (q ⟨0, by decide⟩).val :=
  dot_S512x256_S256x4096_S512x4096_1_0_0_1_n_n.lhsIdx_val_of_single rfl i q
theorem rhs0_dot_S512x256_S256x4096_S512x4096_1_0_0_1_n_n (i : S512x4096.Idx) (q : dot_S512x256_S256x4096_S512x4096_1_0_0_1_n_n.contr.Idx) : (dot_S512x256_S256x4096_S512x4096_1_0_0_1_n_n.rhsIdx i q 0).val = (q ⟨0, by decide⟩).val :=
  dot_S512x256_S256x4096_S512x4096_1_0_0_1_n_n.rhsIdx_val_of_single rfl i q
theorem rhs1_dot_S512x256_S256x4096_S512x4096_1_0_0_1_n_n (i : S512x4096.Idx) (q : dot_S512x256_S256x4096_S512x4096_1_0_0_1_n_n.contr.Idx) : (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl
/-- The left operand is read at (row of the output, contraction coordinate). -/
theorem lidx_dot_S512x256_S256x4096_S512x4096_1_0_0_1_n_n (a : Fin 512) (b : Fin 4096) (k : Fin 256) :
    dot_S512x256_S256x4096_S512x4096_1_0_0_1_n_n.lhsIdx (ix2 a b) ((contrEquiv1 dot_S512x256_S256x4096_S512x4096_1_0_0_1_n_n 256 rfl rfl).symm k) = ix2 a k :=
  funext fun d => Fin.ext (by
    have hk := contrEquiv1_symm_val dot_S512x256_S256x4096_S512x4096_1_0_0_1_n_n 256 rfl rfl k
    match d with
    | ⟨0, _⟩ => exact lhs0_dot_S512x256_S256x4096_S512x4096_1_0_0_1_n_n _ _
    | ⟨1, _⟩ => exact (lhs1_dot_S512x256_S256x4096_S512x4096_1_0_0_1_n_n _ _).trans hk)
/-- The right operand is read at (contraction coordinate, column of the output). -/
theorem ridx_dot_S512x256_S256x4096_S512x4096_1_0_0_1_n_n (a : Fin 512) (b : Fin 4096) (k : Fin 256) :
    dot_S512x256_S256x4096_S512x4096_1_0_0_1_n_n.rhsIdx (ix2 a b) ((contrEquiv1 dot_S512x256_S256x4096_S512x4096_1_0_0_1_n_n 256 rfl rfl).symm k) = ix2 k b :=
  funext fun d => Fin.ext (by
    have hk := contrEquiv1_symm_val dot_S512x256_S256x4096_S512x4096_1_0_0_1_n_n 256 rfl rfl k
    match d with
    | ⟨0, _⟩ => exact (rhs0_dot_S512x256_S256x4096_S512x4096_1_0_0_1_n_n _ _).trans hk
    | ⟨1, _⟩ => exact rhs1_dot_S512x256_S256x4096_S512x4096_1_0_0_1_n_n _ _)

theorem lhs0_dot_S512x256_S256x16_S512x16_1_0_0_1_n_n (i : S512x16.Idx) (q : dot_S512x256_S256x16_S512x16_1_0_0_1_n_n.contr.Idx) : (dot_S512x256_S256x16_S512x16_1_0_0_1_n_n.lhsIdx i q 0).val = (i 0).val := by
  unfold DotDims.lhsIdx
  rw [dif_neg (show ¬(0 : Fin S512x256.rank) ∈ dot_S512x256_S256x16_S512x16_1_0_0_1_n_n.lhsBatch by decide), dif_pos (show (0 : Fin S512x256.rank) ∈ dot_S512x256_S256x16_S512x16_1_0_0_1_n_n.lhsNonContracting by decide)]
  rfl
theorem lhs1_dot_S512x256_S256x16_S512x16_1_0_0_1_n_n (i : S512x16.Idx) (q : dot_S512x256_S256x16_S512x16_1_0_0_1_n_n.contr.Idx) : (dot_S512x256_S256x16_S512x16_1_0_0_1_n_n.lhsIdx i q 1).val = (q ⟨0, by decide⟩).val :=
  dot_S512x256_S256x16_S512x16_1_0_0_1_n_n.lhsIdx_val_of_single rfl i q
theorem rhs0_dot_S512x256_S256x16_S512x16_1_0_0_1_n_n (i : S512x16.Idx) (q : dot_S512x256_S256x16_S512x16_1_0_0_1_n_n.contr.Idx) : (dot_S512x256_S256x16_S512x16_1_0_0_1_n_n.rhsIdx i q 0).val = (q ⟨0, by decide⟩).val :=
  dot_S512x256_S256x16_S512x16_1_0_0_1_n_n.rhsIdx_val_of_single rfl i q
theorem rhs1_dot_S512x256_S256x16_S512x16_1_0_0_1_n_n (i : S512x16.Idx) (q : dot_S512x256_S256x16_S512x16_1_0_0_1_n_n.contr.Idx) : (dot_S512x256_S256x16_S512x16_1_0_0_1_n_n.rhsIdx i q 1).val = (i 1).val := by
  unfold DotDims.rhsIdx
  rw [dif_neg (show ¬(1 : Fin S256x16.rank) ∈ dot_S512x256_S256x16_S512x16_1_0_0_1_n_n.rhsBatch by decide), dif_pos (show (1 : Fin S256x16.rank) ∈ dot_S512x256_S256x16_S512x16_1_0_0_1_n_n.rhsNonContracting by decide)]
  rfl
/-- The left operand is read at (row of the output, contraction coordinate). -/
theorem lidx_dot_S512x256_S256x16_S512x16_1_0_0_1_n_n (a : Fin 512) (b : Fin 16) (k : Fin 256) :
    dot_S512x256_S256x16_S512x16_1_0_0_1_n_n.lhsIdx (ix2 a b) ((contrEquiv1 dot_S512x256_S256x16_S512x16_1_0_0_1_n_n 256 rfl rfl).symm k) = ix2 a k :=
  funext fun d => Fin.ext (by
    have hk := contrEquiv1_symm_val dot_S512x256_S256x16_S512x16_1_0_0_1_n_n 256 rfl rfl k
    match d with
    | ⟨0, _⟩ => exact lhs0_dot_S512x256_S256x16_S512x16_1_0_0_1_n_n _ _
    | ⟨1, _⟩ => exact (lhs1_dot_S512x256_S256x16_S512x16_1_0_0_1_n_n _ _).trans hk)
/-- The right operand is read at (contraction coordinate, column of the output). -/
theorem ridx_dot_S512x256_S256x16_S512x16_1_0_0_1_n_n (a : Fin 512) (b : Fin 16) (k : Fin 256) :
    dot_S512x256_S256x16_S512x16_1_0_0_1_n_n.rhsIdx (ix2 a b) ((contrEquiv1 dot_S512x256_S256x16_S512x16_1_0_0_1_n_n 256 rfl rfl).symm k) = ix2 k b :=
  funext fun d => Fin.ext (by
    have hk := contrEquiv1_symm_val dot_S512x256_S256x16_S512x16_1_0_0_1_n_n 256 rfl rfl k
    match d with
    | ⟨0, _⟩ => exact (rhs0_dot_S512x256_S256x16_S512x16_1_0_0_1_n_n _ _).trans hk
    | ⟨1, _⟩ => exact rhs1_dot_S512x256_S256x16_S512x16_1_0_0_1_n_n _ _)

theorem lhs0_dot_S512x16_S16x4096_S512x4096_1_0_0_1_n_n (i : S512x4096.Idx) (q : dot_S512x16_S16x4096_S512x4096_1_0_0_1_n_n.contr.Idx) : (dot_S512x16_S16x4096_S512x4096_1_0_0_1_n_n.lhsIdx i q 0).val = (i 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
theorem lhs1_dot_S512x16_S16x4096_S512x4096_1_0_0_1_n_n (i : S512x4096.Idx) (q : dot_S512x16_S16x4096_S512x4096_1_0_0_1_n_n.contr.Idx) : (dot_S512x16_S16x4096_S512x4096_1_0_0_1_n_n.lhsIdx i q 1).val = (q ⟨0, by decide⟩).val :=
  dot_S512x16_S16x4096_S512x4096_1_0_0_1_n_n.lhsIdx_val_of_single rfl i q
theorem rhs0_dot_S512x16_S16x4096_S512x4096_1_0_0_1_n_n (i : S512x4096.Idx) (q : dot_S512x16_S16x4096_S512x4096_1_0_0_1_n_n.contr.Idx) : (dot_S512x16_S16x4096_S512x4096_1_0_0_1_n_n.rhsIdx i q 0).val = (q ⟨0, by decide⟩).val :=
  dot_S512x16_S16x4096_S512x4096_1_0_0_1_n_n.rhsIdx_val_of_single rfl i q
theorem rhs1_dot_S512x16_S16x4096_S512x4096_1_0_0_1_n_n (i : S512x4096.Idx) (q : dot_S512x16_S16x4096_S512x4096_1_0_0_1_n_n.contr.Idx) : (dot_S512x16_S16x4096_S512x4096_1_0_0_1_n_n.rhsIdx i q 1).val = (i 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl
/-- The left operand is read at (row of the output, contraction coordinate). -/
theorem lidx_dot_S512x16_S16x4096_S512x4096_1_0_0_1_n_n (a : Fin 512) (b : Fin 4096) (k : Fin 16) :
    dot_S512x16_S16x4096_S512x4096_1_0_0_1_n_n.lhsIdx (ix2 a b) ((contrEquiv1 dot_S512x16_S16x4096_S512x4096_1_0_0_1_n_n 16 rfl rfl).symm k) = ix2 a k :=
  funext fun d => Fin.ext (by
    have hk := contrEquiv1_symm_val dot_S512x16_S16x4096_S512x4096_1_0_0_1_n_n 16 rfl rfl k
    match d with
    | ⟨0, _⟩ => exact lhs0_dot_S512x16_S16x4096_S512x4096_1_0_0_1_n_n _ _
    | ⟨1, _⟩ => exact (lhs1_dot_S512x16_S16x4096_S512x4096_1_0_0_1_n_n _ _).trans hk)
/-- The right operand is read at (contraction coordinate, column of the output). -/
theorem ridx_dot_S512x16_S16x4096_S512x4096_1_0_0_1_n_n (a : Fin 512) (b : Fin 4096) (k : Fin 16) :
    dot_S512x16_S16x4096_S512x4096_1_0_0_1_n_n.rhsIdx (ix2 a b) ((contrEquiv1 dot_S512x16_S16x4096_S512x4096_1_0_0_1_n_n 16 rfl rfl).symm k) = ix2 k b :=
  funext fun d => Fin.ext (by
    have hk := contrEquiv1_symm_val dot_S512x16_S16x4096_S512x4096_1_0_0_1_n_n 16 rfl rfl k
    match d with
    | ⟨0, _⟩ => exact (rhs0_dot_S512x16_S16x4096_S512x4096_1_0_0_1_n_n _ _).trans hk
    | ⟨1, _⟩ => exact rhs1_dot_S512x16_S16x4096_S512x4096_1_0_0_1_n_n _ _)

/-! ## The payloads at an index -/

/-- The block the output is reset to is zero everywhere. -/
theorem k1_pay1_apply (j : S512x4096.Idx) : k1_pay1 (F := Ideal) j = 0 :=
  Ideal.ofBits_zero_f32

/-- The block the adapter's accumulator is reset to is zero everywhere. -/
theorem k1_pay2_apply (j : S512x16.Idx) : k1_pay2 (F := Ideal) j = 0 := by
  unfold k1_pay2
  rw [shapeCast_self]
  exact Ideal.ofBits_zero_f32

/-- One block's contribution to the output: o p q + ∑ j, g p j · w q j. -/
theorem k1_pay4_apply (g : Vec Ideal S512x256 .bf16) (w : Vec Ideal S4096x256 .bf16) (o : Vec Ideal S512x4096 .f32)
    (p : Fin 512) (q : Fin 4096) :
    k1_pay4 (F := Ideal) g w o (ix2 p q) = o (ix2 p q) + ∑ j : Fin 256, g (ix2 p j) * w (ix2 q j) := by
  unfold k1_pay4 k1_pay3
  simp only [shapeCast_self]
  rw [addf_apply]
  refine congrArg (o (ix2 p q) + ·) ?_
  simp only [matmul]
  rw [Ideal.matmul_constant_zero_apply, ← Equiv.sum_comp (contrEquiv1 dot_S512x256_S256x4096_S512x4096_1_0_0_1_n_n 256 rfl rfl).symm]
  refine Finset.sum_congr rfl fun k _ => ?_
  rw [lidx_dot_S512x256_S256x4096_S512x4096_1_0_0_1_n_n, ridx_dot_S512x256_S256x4096_S512x4096_1_0_0_1_n_n, transpose_ix2_apply]

/-- One block's contribution to the adapter's accumulator: s p r + ∑ j, g p j · a r j. -/
theorem k1_pay5_apply (g : Vec Ideal S512x256 .bf16) (a : Vec Ideal S16x256 .bf16) (s : Vec Ideal S512x16 .f32)
    (p : Fin 512) (r : Fin 16) :
    k1_pay5 (F := Ideal) g a s (ix2 p r) = s (ix2 p r) + ∑ j : Fin 256, g (ix2 p j) * a (ix2 r j) := by
  unfold k1_pay5 k1_pay3
  simp only [shapeCast_self]
  rw [addf_apply]
  refine congrArg (s (ix2 p r) + ·) ?_
  simp only [matmul]
  rw [Ideal.matmul_constant_zero_apply, ← Equiv.sum_comp (contrEquiv1 dot_S512x256_S256x16_S512x16_1_0_0_1_n_n 256 rfl rfl).symm]
  refine Finset.sum_congr rfl fun k _ => ?_
  rw [lidx_dot_S512x256_S256x16_S512x16_1_0_0_1_n_n, ridx_dot_S512x256_S256x16_S512x16_1_0_0_1_n_n, transpose_ix2_apply]

/-- The adapter's term added at the last block: o p q + (∑ r, s p r · b q r) · two. -/
theorem k1_pay6_apply (b : Vec Ideal S4096x16 .bf16) (s : Vec Ideal S512x16 .f32) (o : Vec Ideal S512x4096 .f32)
    (p : Fin 512) (q : Fin 4096) :
    k1_pay6 (F := Ideal) b s o (ix2 p q) = o (ix2 p q) + (∑ r : Fin 16, s (ix2 p r) * b (ix2 q r)) * Cert.Spec.two := by
  unfold k1_pay6
  simp only [shapeCast_self]
  rw [addf_apply, mulf_apply]
  refine congrArg (o (ix2 p q) + ·) ?_
  refine congrArg (· * Cert.Spec.two) ?_
  simp only [matmul]
  rw [Ideal.matmul_constant_zero_apply, ← Equiv.sum_comp (contrEquiv1 dot_S512x16_S16x4096_S512x4096_1_0_0_1_n_n 16 rfl rfl).symm]
  refine Finset.sum_congr rfl fun k _ => ?_
  rw [lidx_dot_S512x16_S16x4096_S512x4096_1_0_0_1_n_n, ridx_dot_S512x16_S16x4096_S512x4096_1_0_0_1_n_n, transpose_ix2_apply, truncf_apply]

end Cert.KernelIdeal.Val

end
-- ==== Proof.Val.Algebra.lean ====
/-
  Sums over the hidden axis taken block by block.

  The hidden axis has 11008 = 43 · 256 entries.  A sum over it is the sum over the 43 blocks of the
  sums inside each block (a reindexing: only commutativity and associativity of + are used, so it
  holds on the extended reals), and an accumulator that starts at 0 and adds one block's sum after
  another ends at the sum over all blocks.
-/
import Idealize.ShloMosaic.PureOps.Ideal

noncomputable section

namespace Cert.Spec

theorem blk_lt (k : Fin 43) (j : Fin 256) : k.val * 256 + j.val < 11008 := by omega

theorem sum_blocks_aux {M : Type*} [AddCommMonoid M] (f : Fin (43 * 256) → M) :
    ∑ h : Fin (43 * 256), f h = ∑ k : Fin 43, ∑ j : Fin 256, f (finProdFinEquiv (k, j)) := by
  rw [← Equiv.sum_comp finProdFinEquiv f, Fintype.sum_prod_type]

/-- A sum over the hidden axis is the sum over the 43 blocks of the 256 entries of each. -/
theorem sum_blocks {M : Type*} [AddCommMonoid M] (f : Fin 11008 → M) :
    ∑ h : Fin 11008, f h = ∑ k : Fin 43, ∑ j : Fin 256, f ⟨k.val * 256 + j.val, blk_lt k j⟩ := by
  refine (sum_blocks_aux f).trans ?_
  refine Finset.sum_congr rfl fun k _ => Finset.sum_congr rfl fun j _ => congrArg f (Fin.ext ?_)
  show j.val + 256 * k.val = k.val * 256 + j.val
  omega

/-- An accumulator started at zero that adds the block sums S 0, S 1, … in order, after block n. -/
def foldBlocks {M : Type*} [AddCommMonoid M] (S : ℕ → M) : ℕ → M
  | 0 => 0 + S 0
  | n + 1 => foldBlocks S n + S (n + 1)

theorem foldBlocks_zero {M : Type*} [AddCommMonoid M] (S : ℕ → M) : foldBlocks S 0 = 0 + S 0 := rfl
theorem foldBlocks_succ {M : Type*} [AddCommMonoid M] (S : ℕ → M) (n : ℕ) :
    foldBlocks S (n + 1) = foldBlocks S n + S (n + 1) := rfl

/-- The accumulator after block n holds the sum of the first n + 1 block sums. -/
theorem foldBlocks_eq {M : Type*} [AddCommMonoid M] (S : ℕ → M) (n : ℕ) :
    foldBlocks S n = ∑ k ∈ Finset.range (n + 1), S k := by
  induction n with
  | zero => simp [foldBlocks]
  | succ n ih => rw [foldBlocks_succ, ih, Finset.sum_range_succ _ (n + 1)]

/-- After the last of the 43 blocks the accumulator holds the sum over all blocks. -/
theorem foldBlocks_last {M : Type*} [AddCommMonoid M] (S : ℕ → M) :
    foldBlocks S 42 = ∑ k : Fin 43, S k.val := by
  rw [foldBlocks_eq, Fin.sum_univ_eq_sum_range (fun k => S k) 43]

/-- The accumulator over the blocks of a function of the hidden axis ends at the sum over the axis. -/
theorem foldBlocks_sum {M : Type*} [AddCommMonoid M] (f : Fin 11008 → M) (S : ℕ → M)
    (hS : ∀ k : Fin 43, S k.val = ∑ j : Fin 256, f ⟨k.val * 256 + j.val, blk_lt k j⟩) :
    foldBlocks S 42 = ∑ h : Fin 11008, f h := by
  rw [foldBlocks_last, sum_blocks]
  exact Finset.sum_congr rfl fun k _ => hS k

end Cert.Spec

end
-- ==== Proof.KI.R1Pieces.lean ====
/-
  Region 1's three cases, read: what each leaves in the output tile's buffer and in the adapter's
  accumulator is a payload of the body applied to the blocks it was given.

  Every load and store of this body moves a WHOLE buffer, so the last store into a buffer decides its
  contents, and a load after a store reads that store's payload:
    first block   — the output tile holds  pay4 g w zeros,       the accumulator  pay5 g a zeros ;
    middle block  — the output tile holds  pay4 g w (before),    the accumulator  pay5 g a (before) ;
    last block    — the accumulator as in the middle, and the output tile
                    pay6 b (the new accumulator) (the new middle value).
  Nothing here depends on the float instance.
-/
import proofs.«127141_j13503377178799_2_alg».proof.Proof.KI.R1Runs
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a whole-buffer rectangle. -/
theorem hz1 : (![0, 0] : Fin 2 → Nat) = fun _ => 0 := funext fun a => by fin_cases a <;> rfl

/-! ## A middle block (case B): one store into each buffer, after loads of the whole buffers -/

/-- The accumulator after a middle block: this block's products added to what was there. -/
theorem sout1_B_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    sout1_B_0 c i arg2 harg2 arg3 harg3 arg4 harg4 arg5 harg5 arg6 harg6 arg7 harg7 hc0 hc1 x0 x1 x2 xo4 xs0 = k1_pay5 x0 x2 xs0 := by
  unfold sout1_B_0
  rw [View.read_writes_eq_canon _ _ _ (scover1_B_0 c i arg2 harg2 arg3 harg3 arg4 harg4 arg5 harg5 arg6 harg6 arg7 harg7 hc0 hc1 x0 x1 x2 xo4 xs0)]
  unfold kernelRun1_B
  dsimp only
  rw [View.canon_unit_zero hz1]
  simp only [View.readAt_eq_ld, harg2.read_unread, harg4.read_unread, harg7.read_unread,
    View.ld_unit_zero (S := S512x256) hz1, View.ld_unit_zero (S := S16x256) hz1, View.ld_unit_zero (S := S512x16) hz1]

/-- The output tile after a middle block: this block's products added to what was there. -/
theorem out1_B_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    out1_B_4 c i arg2 harg2 arg3 harg3 arg4 harg4 arg5 harg5 arg6 harg6 arg7 harg7 hc0 hc1 x0 x1 x2 xo4 xs0 = k1_pay4 x0 x1 xo4 := by
  unfold out1_B_4
  rw [View.read_writes_eq_canon _ _ _ (cover1_B_4 c i arg2 harg2 arg3 harg3 arg4 harg4 arg5 harg5 arg6 harg6 arg7 harg7 hc0 hc1 x0 x1 x2 xo4 xs0)]
  unfold kernelRun1_B
  dsimp only
  rw [View.canon_unit_zero hz1]
  simp only [View.readAt_eq_ld, harg2.read_unread, harg3.read_unread, harg6.read_unread,
    View.ld_unit_zero (S := S512x256) hz1, View.ld_unit_zero (S := S4096x256) hz1, View.ld_unit_zero (S := S512x4096) hz1]

/-! ## The first block (case A): each buffer is zeroed, read back, and stored into again -/

/-- The accumulator after the first block: this block's products added to the zero block. -/
theorem sout1_A_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    sout1_A_0 c i arg2 harg2 arg3 harg3 arg4 harg4 arg5 harg5 arg6 harg6 arg7 harg7 hc0 hc1 x0 x1 x2 = k1_pay5 x0 x2 (k1_pay2 (F := F)) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero (S := S512x16) hz1, View.readCov_unit_zero (S := S512x16) _ hz1]
  simp only [View.readAt_eq_ld, harg2.read_unread, harg4.read_unread,
    View.ld_unit_zero (S := S512x256) hz1, View.ld_unit_zero (S := S16x256) hz1]

/-- The output tile after the first block: this block's products added to the zero block. -/
theorem out1_A_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    out1_A_4 c i arg2 harg2 arg3 harg3 arg4 harg4 arg5 harg5 arg6 harg6 arg7 harg7 hc0 hc1 x0 x1 x2 = k1_pay4 x0 x1 (k1_pay1 (F := F)) := by
  unfold out1_A_4
  rw [View.read_writes_eq_canon _ _ _ (cover1_A_4 c i arg2 harg2 arg3 harg3 arg4 harg4 arg5 harg5 arg6 harg6 arg7 harg7 hc0 hc1 x0 x1 x2)]
  unfold kernelRun1_A
  dsimp only
  sl_unfold_words
  rw [View.canon_cons_unit_zero (S := S512x4096) hz1, View.readCov_unit_zero (S := S512x4096) _ hz1]
  simp only [View.readAt_eq_ld, harg2.read_unread, harg3.read_unread,
    View.ld_unit_zero (S := S512x256) hz1, View.ld_unit_zero (S := S4096x256) hz1]

/-! ## The last block (case C): as a middle block, then the adapter's term from the NEW accumulator and tile -/

/-- The accumulator after the last block: as after a middle block. -/
theorem sout1_C_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) :
    sout1_C_0 c i arg2 harg2 arg3 harg3 arg4 harg4 arg5 harg5 arg6 harg6 arg7 harg7 hc0 hc1 x0 x1 x2 x3 xo4 xs0 = k1_pay5 x0 x2 xs0 := by
  unfold sout1_C_0
  rw [View.read_writes_eq_canon _ _ _ (scover1_C_0 c i arg2 harg2 arg3 harg3 arg4 harg4 arg5 harg5 arg6 harg6 arg7 harg7 hc0 hc1 x0 x1 x2 x3 xo4 xs0)]
  unfold kernelRun1_C
  dsimp only
  sl_unfold_words
  rw [View.canon_unit_zero hz1]
  simp only [View.readAt_eq_ld, harg2.read_unread, harg4.read_unread, harg7.read_unread,
    View.ld_unit_zero (S := S512x256) hz1, View.ld_unit_zero (S := S16x256) hz1, View.ld_unit_zero (S := S512x16) hz1]

/-- The output tile after the last block: the adapter's term, of the accumulator and the tile as the middle-block
    step has just left them, added to that tile. -/
theorem out1_C_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S4096x16 .bf16) (xo4 : Vec F S512x4096 .f32) (xs0 : Vec F S512x16 .f32) :
    out1_C_4 c i arg2 harg2 arg3 harg3 arg4 harg4 arg5 harg5 arg6 harg6 arg7 harg7 hc0 hc1 x0 x1 x2 x3 xo4 xs0 = k1_pay6 x3 (k1_pay5 x0 x2 xs0) (k1_pay4 x0 x1 xo4) := by
  unfold out1_C_4
  rw [View.read_writes_eq_canon _ _ _ (cover1_C_4 c i arg2 harg2 arg3 harg3 arg4 harg4 arg5 harg5 arg6 harg6 arg7 harg7 hc0 hc1 x0 x1 x2 x3 xo4 xs0)]
  unfold kernelRun1_C
  dsimp only
  sl_unfold_words
  rw [View.canon_cons_unit_zero (S := S512x4096) hz1, View.readCov_unit_zero (S := S512x16) _ hz1,
    View.readCov_unit_zero (S := S512x4096) _ hz1]
  simp only [View.readAt_eq_ld, harg2.read_unread, harg3.read_unread, harg4.read_unread, harg5.read_unread,
    harg6.read_unread, harg7.read_unread,
    View.ld_unit_zero (S := S512x256) hz1, View.ld_unit_zero (S := S4096x256) hz1, View.ld_unit_zero (S := S16x256) hz1,
    View.ld_unit_zero (S := S4096x16) hz1, View.ld_unit_zero (S := S512x4096) hz1, View.ld_unit_zero (S := S512x16) hz1]

end Cert.KernelIdeal.Hand

end
-- ==== Proof.Val.R1Value.lean ====
/-
  Region 1's result array: the down projection with its adapter, index by index.

  The grid has 16 row blocks of 512 rows and, inside each, 43 blocks of 256 entries of the hidden
  axis.  At point t = i · 43 + k the body adds block k's products into the output block (rows
  i · 512 …) and into the adapter's [512, 16] accumulator; both are reset at k = 0, and at k = 42
  the accumulator, multiplied by the adapter's second factor and the scale two, is added to the
  output block, which is then written back.  So after point t the output block holds the ordered
  sum 0 + S 0 + … + S k of the block sums (plus the adapter's term when k = 42) and the accumulator
  the same for the adapter's first factor.  The ordered sum of the 43 block sums is the sum over the
  hidden axis (only + being commutative and associative is used), which is the specification.
-/
import proofs.«127141_j13503377178799_2_alg».proof.Proof.Val.R1Payload
import proofs.«127141_j13503377178799_2_alg».proof.Proof.Val.Algebra
import proofs.«127141_j13503377178799_2_alg».proof.Proof.Gen.KernelIdeal.Launch
import proofs.«127141_j13503377178799_2_alg».proof.Proof.Gen.KernelIdeal.Points
import proofs.«127141_j13503377178799_2_alg».proof.Proof.KI.R1
import proofs.«127141_j13503377178799_2_alg».proof.Proof.KI.R1Pieces
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)
open Cert.Spec (Arr2 two outK foldBlocks foldBlocks_zero foldBlocks_succ foldBlocks_sum blk_lt)

/-! ## Block sums along the hidden axis -/

/-- Row i · 512 + p of the 8192 rows (total in i: reduced modulo 8192, the identity for i < 16). -/
def rowIx (i : ℕ) (p : Fin 512) : Fin 8192 := ⟨(i * 512 + p.val) % 8192, Nat.mod_lt _ (by decide)⟩
/-- Entry k · 256 + j of the hidden axis (total in k: reduced modulo 11008, the identity for k < 43). -/
def colIx (k : ℕ) (j : Fin 256) : Fin 11008 := ⟨(k * 256 + j.val) % 11008, Nat.mod_lt _ (by decide)⟩

theorem rowIx_val (i : ℕ) (hi : i < 16) (p : Fin 512) : (rowIx i p).val = i * 512 + p.val :=
  Nat.mod_eq_of_lt (by have := p.isLt; omega)
theorem colIx_val (k : ℕ) (hk : k < 43) (j : Fin 256) : (colIx k j).val = k * 256 + j.val :=
  Nat.mod_eq_of_lt (by have := j.isLt; omega)
theorem colIx_eq (k : Fin 43) (j : Fin 256) : colIx k.val j = ⟨k.val * 256 + j.val, blk_lt k j⟩ :=
  Fin.ext (colIx_val k.val k.isLt j)

section Sums
variable (G : Arr2 8192 11008) (W2 : Arr2 4096 11008) (A2 : Arr2 16 11008) (B2 : Arr2 4096 16)

/-- Block k's part of row P of G against row q of the down weights. -/
def SW (P : Fin 8192) (q : Fin 4096) (k : ℕ) : EReal := ∑ j : Fin 256, G (ix2 P (colIx k j)) * W2 (ix2 q (colIx k j))
/-- Block k's part of row P of G against row r of the adapter's first factor. -/
def SA (P : Fin 8192) (r : Fin 16) (k : ℕ) : EReal := ∑ j : Fin 256, G (ix2 P (colIx k j)) * A2 (ix2 r (colIx k j))

/-- The 43 block sums, added in order from zero, are the sum over the hidden axis. -/
theorem foldSW_last (P : Fin 8192) (q : Fin 4096) :
    foldBlocks (SW G W2 P q) 42 = ∑ h : Fin 11008, G (ix2 P h) * W2 (ix2 q h) :=
  foldBlocks_sum (fun h => G (ix2 P h) * W2 (ix2 q h)) _ fun k =>
    Finset.sum_congr rfl fun j _ => by rw [colIx_eq]
theorem foldSA_last (P : Fin 8192) (r : Fin 16) :
    foldBlocks (SA G A2 P r) 42 = ∑ h : Fin 11008, G (ix2 P h) * A2 (ix2 r h) :=
  foldBlocks_sum (fun h => G (ix2 P h) * A2 (ix2 r h)) _ fun k =>
    Finset.sum_congr rfl fun j _ => by rw [colIx_eq]

/-- What the output block holds at row P, column q after block k: the ordered sum so far, and after the
    last block also the adapter's term. -/
def accO (P : Fin 8192) (q : Fin 4096) (k : ℕ) : EReal :=
  if k = 42 then foldBlocks (SW G W2 P q) 42 + (∑ r : Fin 16, foldBlocks (SA G A2 P r) 42 * B2 (ix2 q r)) * two
  else foldBlocks (SW G W2 P q) k

theorem accO_of_ne {k : ℕ} (hk : ¬k = 42) (P : Fin 8192) (q : Fin 4096) :
    accO G W2 A2 B2 P q k = foldBlocks (SW G W2 P q) k := if_neg hk
theorem accO_last (P : Fin 8192) (q : Fin 4096) : accO G W2 A2 B2 P q 42 = outK G W2 A2 B2 P q := by
  unfold accO outK
  rw [if_pos rfl, foldSW_last]
  refine congrArg (fun z => _ + z * two) (Finset.sum_congr rfl fun r _ => ?_)
  rw [foldSA_last]

end Sums

/-! ## One point of the grid, over variable blocks -/

/-- The first block: the reset output plus block 0's products. -/
theorem pay4_fold0 (x0 : Vec Ideal S512x256 .bf16) (x1 : Vec Ideal S4096x256 .bf16) (S : ℕ → EReal) (p : Fin 512) (q : Fin 4096)
    (hs : ∑ j : Fin 256, x0 (ix2 p j) * x1 (ix2 q j) = S 0) :
    k1_pay4 (F := Ideal) x0 x1 (k1_pay1 (F := Ideal)) (ix2 p q) = foldBlocks S 0 := by
  rw [k1_pay4_apply, k1_pay1_apply, hs]; rfl
/-- A later block: what was there plus this block's products. -/
theorem pay4_fold (x0 : Vec Ideal S512x256 .bf16) (x1 : Vec Ideal S4096x256 .bf16) (xo : Vec Ideal S512x4096 .f32)
    (S : ℕ → EReal) (n : ℕ) (p : Fin 512) (q : Fin 4096) (ho : xo (ix2 p q) = foldBlocks S n)
    (hs : ∑ j : Fin 256, x0 (ix2 p j) * x1 (ix2 q j) = S (n + 1)) :
    k1_pay4 (F := Ideal) x0 x1 xo (ix2 p q) = foldBlocks S (n + 1) := by
  rw [k1_pay4_apply, ho, hs]; rfl
/-- The same two steps for the adapter's accumulator. -/
theorem pay5_fold0 (x0 : Vec Ideal S512x256 .bf16) (x2 : Vec Ideal S16x256 .bf16) (S : ℕ → EReal) (p : Fin 512) (r : Fin 16)
    (hs : ∑ j : Fin 256, x0 (ix2 p j) * x2 (ix2 r j) = S 0) :
    k1_pay5 (F := Ideal) x0 x2 (k1_pay2 (F := Ideal)) (ix2 p r) = foldBlocks S 0 := by
  rw [k1_pay5_apply, k1_pay2_apply, hs]; rfl
theorem pay5_fold (x0 : Vec Ideal S512x256 .bf16) (x2 : Vec Ideal S16x256 .bf16) (xs : Vec Ideal S512x16 .f32)
    (S : ℕ → EReal) (n : ℕ) (p : Fin 512) (r : Fin 16) (hs0 : xs (ix2 p r) = foldBlocks S n)
    (hs : ∑ j : Fin 256, x0 (ix2 p j) * x2 (ix2 r j) = S (n + 1)) :
    k1_pay5 (F := Ideal) x0 x2 xs (ix2 p r) = foldBlocks S (n + 1) := by
  rw [k1_pay5_apply, hs0, hs]; rfl

/-! ## The windows' blocks read at an index

At point t = i · 43 + k the printed index maps send window 0 (the gated activations) to block (i, k),
windows 1 and 2 (the down weights and the adapter's first factor) to block (0, k), window 3 (the
adapter's second factor) to block (0, 0) and the output window to block (i, 0): decided once over
the grid's 688 points. -/

theorem index1_0 : ∀ t : Fin cfg1.N, win1_0.index t 0 = t.val / 43 ∧ win1_0.index t 1 = t.val % 43 :=
  (by decide +kernel : ∀ t : Fin grid1.N, win1_0.index t 0 = t.val / 43 ∧ win1_0.index t 1 = t.val % 43)
theorem index1_1 : ∀ t : Fin cfg1.N, win1_1.index t 0 = 0 ∧ win1_1.index t 1 = t.val % 43 :=
  (by decide +kernel : ∀ t : Fin grid1.N, win1_1.index t 0 = 0 ∧ win1_1.index t 1 = t.val % 43)
theorem index1_2 : ∀ t : Fin cfg1.N, win1_2.index t 0 = 0 ∧ win1_2.index t 1 = t.val % 43 :=
  (by decide +kernel : ∀ t : Fin grid1.N, win1_2.index t 0 = 0 ∧ win1_2.index t 1 = t.val % 43)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = t.val / 43 ∧ win1_4.index t 1 = 0 :=
  (by decide +kernel : ∀ t : Fin grid1.N, win1_4.index t 0 = t.val / 43 ∧ win1_4.index t 1 = 0)

theorem lt_N1 (t : Fin cfg1.N) : t.val < 688 := lt_of_lt_of_eq t.isLt N_1

/-- Window 0's block at point t reads the gated activations at row i · 512 + p, entry k · 256 + j. -/
theorem blk1_0_read (c : Dev nD) (X : Buf (Elt Ideal) ((c : Thread nD τ).loc main_v17)) (t : Fin cfg1.N) (p : Fin 512) (j : Fin 256) :
    (((cfg1.win 0).blk t).view.read (Elt Ideal) X : Vec Ideal S512x256 .bf16) (ix2 p j)
      = (X : Arr2 8192 11008) (ix2 (rowIx (t.val / 43) p) (colIx (t.val % 43) j)) := by
  have ht := lt_N1 t
  rw [View.read_apply]
  show X _ = X _
  congr 1
  funext a; apply Fin.ext
  match a with
  | ⟨0, _⟩ =>
    show win1_0.index t 0 * 512 + 1 * p.val = (rowIx (t.val / 43) p).val
    rw [(index1_0 t).1, rowIx_val _ (by omega)]; omega
  | ⟨1, _⟩ =>
    show win1_0.index t 1 * 256 + 1 * j.val = (colIx (t.val % 43) j).val
    rw [(index1_0 t).2, colIx_val _ (by omega)]; omega

/-- Window 1's block at point t reads the down weights at row q, entry k · 256 + j. -/
theorem blk1_1_read (c : Dev nD) (X : Buf (Elt Ideal) ((c : Thread nD τ).loc main_v4)) (t : Fin cfg1.N) (q : Fin 4096) (j : Fin 256) :
    (((cfg1.win 1).blk t).view.read (Elt Ideal) X : Vec Ideal S4096x256 .bf16) (ix2 q j)
      = (X : Arr2 4096 11008) (ix2 q (colIx (t.val % 43) j)) := by
  have ht := lt_N1 t
  rw [View.read_apply]
  show X _ = X _
  congr 1
  funext a; apply Fin.ext
  match a with
  | ⟨0, _⟩ =>
    show win1_1.index t 0 * 4096 + 1 * q.val = q.val
    rw [(index1_1 t).1]; omega
  | ⟨1, _⟩ =>
    show win1_1.index t 1 * 256 + 1 * j.val = (colIx (t.val % 43) j).val
    rw [(index1_1 t).2, colIx_val _ (by omega)]; omega

/-- Window 2's block at point t reads the adapter's first factor at row r, entry k · 256 + j. -/
theorem blk1_2_read (c : Dev nD) (X : Buf (Elt Ideal) ((c : Thread nD τ).loc main_v9)) (t : Fin cfg1.N) (r : Fin 16) (j : Fin 256) :
    (((cfg1.win 2).blk t).view.read (Elt Ideal) X : Vec Ideal S16x256 .bf16) (ix2 r j)
      = (X : Arr2 16 11008) (ix2 r (colIx (t.val % 43) j)) := by
  have ht := lt_N1 t
  rw [View.read_apply]
  show X _ = X _
  congr 1
  funext a; apply Fin.ext
  match a with
  | ⟨0, _⟩ =>
    show win1_2.index t 0 * 16 + 1 * r.val = r.val
    rw [(index1_2 t).1]; omega
  | ⟨1, _⟩ =>
    show win1_2.index t 1 * 256 + 1 * j.val = (colIx (t.val % 43) j).val
    rw [(index1_2 t).2, colIx_val _ (by omega)]; omega

/-- Window 3's block at every point is the whole of the adapter's second factor. -/
theorem blk1_3_read (c : Dev nD) (X : Buf (Elt Ideal) ((c : Thread nD τ).loc main_v10)) (t : Fin cfg1.N) (q : Fin 4096) (r : Fin 16) :
    (((cfg1.win 3).blk t).view.read (Elt Ideal) X : Vec Ideal S4096x16 .bf16) (ix2 q r)
      = (X : Arr2 4096 16) (ix2 q r) := by
  rw [View.read_apply]
  show X _ = X _
  congr 1
  funext a; apply Fin.ext
  match a with
  | ⟨0, _⟩ =>
    show win1_3.index t 0 * 4096 + 1 * q.val = q.val
    rw [(index1_3 t).1]; omega
  | ⟨1, _⟩ =>
    show win1_3.index t 1 * 16 + 1 * r.val = r.val
    rw [(index1_3 t).2]; omega

/-- The output window's block at point t is rows i · 512 … of the result, all 4096 columns. -/
theorem blk1_4_read (c : Dev nD) (X : Buf (Elt Ideal) ((c : Thread nD τ).loc main_v18)) (t : Fin cfg1.N) (p : Fin 512) (q : Fin 4096) :
    (((cfg1.win 4).blk t).view.read (Elt Ideal) X : Vec Ideal S512x4096 .f32) (ix2 p q)
      = (X : Arr2 8192 4096) (ix2 (rowIx (t.val / 43) p) q) := by
  have ht := lt_N1 t
  rw [View.read_apply]
  show X _ = X _
  congr 1
  funext a; apply Fin.ext
  match a with
  | ⟨0, _⟩ =>
    show win1_4.index t 0 * 512 + 1 * p.val = (rowIx (t.val / 43) p).val
    rw [(index1_4 t).1, rowIx_val _ (by omega)]; omega
  | ⟨1, _⟩ =>
    show win1_4.index t 1 * 4096 + 1 * q.val = q.val
    rw [(index1_4 t).2]; omega

/-! ## The accumulation, point by point -/

/-- A block of G against a block of the down weights, read entry by entry, is block k's sum. -/
theorem sumW_of (G : Arr2 8192 11008) (W : Arr2 4096 11008) (x0 : Vec Ideal S512x256 .bf16) (x1 : Vec Ideal S4096x256 .bf16)
    (P : Fin 8192) (k : ℕ) (p : Fin 512) (q : Fin 4096) (h0 : ∀ j : Fin 256, x0 (ix2 p j) = G (ix2 P (colIx k j)))
    (h1 : ∀ j : Fin 256, x1 (ix2 q j) = W (ix2 q (colIx k j))) :
    ∑ j : Fin 256, x0 (ix2 p j) * x1 (ix2 q j) = SW G W P q k := by
  unfold SW
  exact Finset.sum_congr rfl fun j _ => by rw [h0 j, h1 j]
/-- The same against a block of the adapter's first factor. -/
theorem sumA_of (G : Arr2 8192 11008) (A : Arr2 16 11008) (x0 : Vec Ideal S512x256 .bf16) (x2 : Vec Ideal S16x256 .bf16)
    (P : Fin 8192) (k : ℕ) (p : Fin 512) (r : Fin 16) (h0 : ∀ j : Fin 256, x0 (ix2 p j) = G (ix2 P (colIx k j)))
    (h2 : ∀ j : Fin 256, x2 (ix2 r j) = A (ix2 r (colIx k j))) :
    ∑ j : Fin 256, x0 (ix2 p j) * x2 (ix2 r j) = SA G A P r k := by
  unfold SA
  exact Finset.sum_congr rfl fun j _ => by rw [h0 j, h2 j]

/-- The adapter's term at the last block, over variable blocks. -/
theorem pay6_last (x0 : Vec Ideal S512x256 .bf16) (x1 : Vec Ideal S4096x256 .bf16) (x2 : Vec Ideal S16x256 .bf16) (x3 : Vec Ideal S4096x16 .bf16) (xo : Vec Ideal S512x4096 .f32) (xs : Vec Ideal S512x16 .f32)
    (S : ℕ → EReal) (T : Fin 16 → ℕ → EReal) (Bq : Fin 16 → EReal) (p : Fin 512) (q : Fin 4096)
    (ho : xo (ix2 p q) = foldBlocks S 41) (hs : ∑ j : Fin 256, x0 (ix2 p j) * x1 (ix2 q j) = S 42)
    (hso : ∀ r : Fin 16, xs (ix2 p r) = foldBlocks (T r) 41)
    (hst : ∀ r : Fin 16, ∑ j : Fin 256, x0 (ix2 p j) * x2 (ix2 r j) = T r 42) (hb : ∀ r : Fin 16, x3 (ix2 q r) = Bq r) :
    k1_pay6 (F := Ideal) x3 (k1_pay5 (F := Ideal) x0 x2 xs) (k1_pay4 (F := Ideal) x0 x1 xo) (ix2 p q)
      = foldBlocks S 42 + (∑ r : Fin 16, foldBlocks (T r) 42 * Bq r) * two := by
  rw [k1_pay6_apply, pay4_fold x0 x1 xo S 41 p q ho hs]
  refine congrArg (fun z => _ + z * two) (Finset.sum_congr rfl fun r _ => ?_)
  rw [pay5_fold x0 x2 xs (T r) 41 p r (hso r) (hst r), hb r]

section Invariant
open Cert.KernelIdeal.Hand
variable (V : (c : Dev nD) → (b : Ref sig .tc) → Buf (Elt Ideal) ((c : Thread nD τ).loc b)) (c : Dev nD)

/-- The gated activations, the down weights and the adapter's two factors as region 1 finds them. -/
abbrev aG : Arr2 8192 11008 := V c main_v17
abbrev aW : Arr2 4096 11008 := V c main_v4
abbrev aA : Arr2 16 11008 := V c main_v9
abbrev aB : Arr2 4096 16 := V c main_v10

theorem iblk1_0_apply (t : Fin cfg1.N) (p : Fin 512) (j : Fin 256) :
    (iblk1 V c 0 t : Vec Ideal S512x256 .bf16) (ix2 p j) = aG V c (ix2 (rowIx (t.val / 43) p) (colIx (t.val % 43) j)) :=
  blk1_0_read c (V c main_v17) t p j
theorem iblk1_1_apply (t : Fin cfg1.N) (q : Fin 4096) (j : Fin 256) :
    (iblk1 V c 1 t : Vec Ideal S4096x256 .bf16) (ix2 q j) = aW V c (ix2 q (colIx (t.val % 43) j)) :=
  blk1_1_read c (V c main_v4) t q j
theorem iblk1_2_apply (t : Fin cfg1.N) (r : Fin 16) (j : Fin 256) :
    (iblk1 V c 2 t : Vec Ideal S16x256 .bf16) (ix2 r j) = aA V c (ix2 r (colIx (t.val % 43) j)) :=
  blk1_2_read c (V c main_v9) t r j
theorem iblk1_3_apply (t : Fin cfg1.N) (q : Fin 4096) (r : Fin 16) :
    (iblk1 V c 3 t : Vec Ideal S4096x16 .bf16) (ix2 q r) = aB V c (ix2 q r) :=
  blk1_3_read c (V c main_v10) t q r

/-- After block k of row tile i: the output tile and the accumulator hold the ordered sums. -/
def Inv (i k : ℕ) (o : Vec Ideal S512x4096 .f32) (s : Vec Ideal S512x16 .f32) : Prop :=
  (∀ (p : Fin 512) (q : Fin 4096), o (ix2 p q) = accO (aG V c) (aW V c) (aA V c) (aB V c) (rowIx i p) q k)
    ∧ ∀ (p : Fin 512) (r : Fin 16), s (ix2 p r) = foldBlocks (SA (aG V c) (aA V c) (rowIx i p) r) k

/-- A first block establishes the invariant at k = 0. -/
theorem inv_A (c' : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec Ideal S512x256 .bf16) (x1 : Vec Ideal S4096x256 .bf16) (x2 : Vec Ideal S16x256 .bf16) (ii k' : ℕ) (hk : k' = 0)
    (h0e : ∀ (p : Fin 512) (j : Fin 256), x0 (ix2 p j) = aG V c (ix2 (rowIx ii p) (colIx k' j)))
    (h1e : ∀ (q : Fin 4096) (j : Fin 256), x1 (ix2 q j) = aW V c (ix2 q (colIx k' j)))
    (h2e : ∀ (r : Fin 16) (j : Fin 256), x2 (ix2 r j) = aA V c (ix2 r (colIx k' j))) :
    Inv V c ii k' (out1_A_4 (F := Ideal) c' i arg2 harg2 arg3 harg3 arg4 harg4 arg5 harg5 arg6 harg6 arg7 harg7 hc0 hc1 x0 x1 x2) (sout1_A_0 (F := Ideal) c' i arg2 harg2 arg3 harg3 arg4 harg4 arg5 harg5 arg6 harg6 arg7 harg7 hc0 hc1 x0 x1 x2) := by
  subst hk
  rw [out1_A_4_eq c' i arg2 harg2 arg3 harg3 arg4 harg4 arg5 harg5 arg6 harg6 arg7 harg7 hc0 hc1 x0 x1 x2, sout1_A_0_eq c' i arg2 harg2 arg3 harg3 arg4 harg4 arg5 harg5 arg6 harg6 arg7 harg7 hc0 hc1 x0 x1 x2]
  refine ⟨fun p q => ?_, fun p r => ?_⟩
  · rw [accO_of_ne _ _ _ _ (by decide)]
    exact pay4_fold0 x0 x1 _ p q (sumW_of _ _ x0 x1 _ 0 p q (h0e p) (h1e q))
  · exact pay5_fold0 x0 x2 _ p r (sumA_of _ _ x0 x2 _ 0 p r (h0e p) (h2e r))

/-- A middle block carries the invariant from k to k + 1. -/
theorem inv_B (c' : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec Ideal S512x256 .bf16) (x1 : Vec Ideal S4096x256 .bf16) (x2 : Vec Ideal S16x256 .bf16) (xo : Vec Ideal S512x4096 .f32) (xs : Vec Ideal S512x16 .f32) (ii ii0 k0 k' : ℕ) (hi : ii0 = ii) (hk : k' = k0 + 1)
    (hk42 : ¬k' = 42) (hk0 : ¬k0 = 42)
    (h0e : ∀ (p : Fin 512) (j : Fin 256), x0 (ix2 p j) = aG V c (ix2 (rowIx ii p) (colIx k' j)))
    (h1e : ∀ (q : Fin 4096) (j : Fin 256), x1 (ix2 q j) = aW V c (ix2 q (colIx k' j)))
    (h2e : ∀ (r : Fin 16) (j : Fin 256), x2 (ix2 r j) = aA V c (ix2 r (colIx k' j)))
    (hprev : Inv V c ii0 k0 xo xs) :
    Inv V c ii k' (out1_B_4 (F := Ideal) c' i arg2 harg2 arg3 harg3 arg4 harg4 arg5 harg5 arg6 harg6 arg7 harg7 hc0 hc1 x0 x1 x2 xo xs) (sout1_B_0 (F := Ideal) c' i arg2 harg2 arg3 harg3 arg4 harg4 arg5 harg5 arg6 harg6 arg7 harg7 hc0 hc1 x0 x1 x2 xo xs) := by
  subst hi; subst hk
  rw [out1_B_4_eq c' i arg2 harg2 arg3 harg3 arg4 harg4 arg5 harg5 arg6 harg6 arg7 harg7 hc0 hc1 x0 x1 x2 xo xs, sout1_B_0_eq c' i arg2 harg2 arg3 harg3 arg4 harg4 arg5 harg5 arg6 harg6 arg7 harg7 hc0 hc1 x0 x1 x2 xo xs]
  refine ⟨fun p q => ?_, fun p r => ?_⟩
  · rw [accO_of_ne _ _ _ _ hk42]
    have ho := hprev.1 p q
    rw [accO_of_ne _ _ _ _ hk0] at ho
    exact pay4_fold x0 x1 xo _ k0 p q ho (sumW_of _ _ x0 x1 _ (k0 + 1) p q (h0e p) (h1e q))
  · exact pay5_fold x0 x2 xs _ k0 p r (hprev.2 p r) (sumA_of _ _ x0 x2 _ (k0 + 1) p r (h0e p) (h2e r))

/-- The last block carries it from 41 to 42, where the output tile also receives the adapter's term. -/
theorem inv_C (c' : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec Ideal S512x256 .bf16) (x1 : Vec Ideal S4096x256 .bf16) (x2 : Vec Ideal S16x256 .bf16) (x3 : Vec Ideal S4096x16 .bf16) (xo : Vec Ideal S512x4096 .f32) (xs : Vec Ideal S512x16 .f32)
    (ii ii0 k0 k' : ℕ) (hi : ii0 = ii) (hk0 : k0 = 41) (hk : k' = 42)
    (h0e : ∀ (p : Fin 512) (j : Fin 256), x0 (ix2 p j) = aG V c (ix2 (rowIx ii p) (colIx k' j)))
    (h1e : ∀ (q : Fin 4096) (j : Fin 256), x1 (ix2 q j) = aW V c (ix2 q (colIx k' j)))
    (h2e : ∀ (r : Fin 16) (j : Fin 256), x2 (ix2 r j) = aA V c (ix2 r (colIx k' j)))
    (hB : ∀ (q : Fin 4096) (r : Fin 16), x3 (ix2 q r) = aB V c (ix2 q r))
    (hprev : Inv V c ii0 k0 xo xs) :
    Inv V c ii k' (out1_C_4 (F := Ideal) c' i arg2 harg2 arg3 harg3 arg4 harg4 arg5 harg5 arg6 harg6 arg7 harg7 hc0 hc1 x0 x1 x2 x3 xo xs) (sout1_C_0 (F := Ideal) c' i arg2 harg2 arg3 harg3 arg4 harg4 arg5 harg5 arg6 harg6 arg7 harg7 hc0 hc1 x0 x1 x2 x3 xo xs) := by
  subst hi; subst hk0; subst hk
  rw [out1_C_4_eq c' i arg2 harg2 arg3 harg3 arg4 harg4 arg5 harg5 arg6 harg6 arg7 harg7 hc0 hc1 x0 x1 x2 x3 xo xs, sout1_C_0_eq c' i arg2 harg2 arg3 harg3 arg4 harg4 arg5 harg5 arg6 harg6 arg7 harg7 hc0 hc1 x0 x1 x2 x3 xo xs]
  refine ⟨fun p q => ?_, fun p r => ?_⟩
  · have ho := hprev.1 p q
    rw [accO_of_ne _ _ _ _ (by decide)] at ho
    unfold accO
    rw [if_pos rfl]
    exact pay6_last x0 x1 x2 x3 xo xs _ (fun r => SA (aG V c) (aA V c) (rowIx ii0 p) r) (fun r => aB V c (ix2 q r)) p q ho
      (sumW_of _ _ x0 x1 _ 42 p q (h0e p) (h1e q)) (fun r => hprev.2 p r)
      (fun r => sumA_of _ _ x0 x2 _ 42 p r (h0e p) (h2e r)) (fun r => hB q r)
  · exact pay5_fold x0 x2 xs _ 41 p r (hprev.2 p r) (sumA_of _ _ x0 x2 _ 42 p r (h0e p) (h2e r))

/-- One point: from the invariant after the point before (needed only away from a first block) to the invariant after it. -/
theorem step (t : Fin cfg1.N)
    (hprev : ¬t.val % 43 = 0 → Inv V c ((t.val - 1) / 43) ((t.val - 1) % 43)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) :
    Inv V c (t.val / 43) (t.val % 43) (outsAt1 (F := Ideal) V c t.val t.isLt).1 (outsAt1 (F := Ideal) V c t.val t.isLt).2 := by
  have hN := lt_N1 t
  by_cases h0 : t.val % 43 = 0
  · have h1 : ¬t.val % 43 = 42 := by omega
    rw [outsAt1_A V c t h0 h1]
    dsimp only
    exact inv_A V c c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h))
      (iblk1 V c 0 t) (iblk1 V c 1 t) (iblk1 V c 2 t) (t.val / 43) (t.val % 43) h0
      (iblk1_0_apply V c t) (iblk1_1_apply V c t) (iblk1_2_apply V c t)
  · by_cases h1 : t.val % 43 = 42
    · rw [outsAt1_C V c t h0 h1]
      dsimp only
      exact inv_C V c c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1)
        (iblk1 V c 0 t) (iblk1 V c 1 t) (iblk1 V c 2 t) (iblk1 V c 3 t) _ _
        (t.val / 43) ((t.val - 1) / 43) ((t.val - 1) % 43) (t.val % 43) (by omega) (by omega) h1
        (iblk1_0_apply V c t) (iblk1_1_apply V c t) (iblk1_2_apply V c t) (iblk1_3_apply V c t) (hprev h0)
    · rw [outsAt1_B V c t h0 h1]
      dsimp only
      exact inv_B V c c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h))
        (iblk1 V c 0 t) (iblk1 V c 1 t) (iblk1 V c 2 t) _ _
        (t.val / 43) ((t.val - 1) / 43) ((t.val - 1) % 43) (t.val % 43) (by omega) (by omega) h1 (by omega)
        (iblk1_0_apply V c t) (iblk1_1_apply V c t) (iblk1_2_apply V c t) (hprev h0)

/-- After every point t = i · 43 + k the output tile's buffer and the accumulator hold the ordered sums: by induction on
    the point. -/
theorem outsAt1_inv (n : ℕ) : ∀ (hn : n < cfg1.N),
    Inv V c (n / 43) (n % 43) (outsAt1 (F := Ideal) V c n hn).1 (outsAt1 (F := Ideal) V c n hn).2 := by
  induction n using Nat.strong_induction_on with
  | _ n ih =>
    intro hn
    exact step V c ⟨n, hn⟩ fun h => ih (n - 1) (by have h' : ¬n % 43 = 0 := h; omega) _

/-! ## From the tiles to the array -/

/-- The specification's array. -/
abbrev Gout : Arr2 8192 4096 := fun j => outK (aG V c) (aW V c) (aA V c) (aB V c) (j 0) (j 1)

/-- What a last-block point writes back is its row tile of the specification's array. -/
theorem flushed_eq (t : Fin cfg1.N) (hf : (cfg1.win 4).flush t = true) :
    (dat1 (F := Ideal) V c).flushed 4 t = ((cfg1.win 4).blk t).view.read (Elt Ideal) (Gout V c) := by
  have h42 : t.val % 43 = 42 := (flush1_4 t).mp hf
  show (cfg1.win 4).cut (grid1.coords t) ((dat1 (F := Ideal) V c).after 4 t) = _
  rw [after1_4]
  funext x
  obtain ⟨p, q, rfl⟩ : ∃ (p : Fin 512) (q : Fin 4096), x = ix2 p q := ⟨x 0, x 1, eq_ix2 (n0 := 512) (n1 := 4096) x⟩
  refine Eq.trans ?_ (blk1_4_read c (Gout V c) t p q).symm
  show (outsAt1 (F := Ideal) V c t.val t.isLt).1 (ix2 p q) = outK (aG V c) (aW V c) (aA V c) (aB V c) (rowIx (t.val / 43) p) q
  rw [(outsAt1_inv V c t.val t.isLt).1 p q, h42, accO_last]

end Invariant

/-- Row P of the result lies in the tile written back at point (P / 512) · 43 + 42. -/
theorem covered (j : S8192x4096.Idx) :
    ∃ t : Fin cfg1.N, (cfg1.win 4).flush t = true ∧ j ∈ ((cfg1.win 4).blk t).view.set := by
  have h0 : (j 0).val < 8192 := (j 0).isLt
  have h1 : (j 1).val < 4096 := (j 1).isLt
  let t : Fin cfg1.N := ⟨(j 0).val / 512 * 43 + 42, by rw [show cfg1.N = 688 from N_1]; omega⟩
  have htv : t.val = (j 0).val / 512 * 43 + 42 := rfl
  refine ⟨t, (flush1_4 t).mpr (by rw [htv]; omega), ?_⟩
  show j ∈ ((View.whole main_v18).slice (win1_4.rect t)).set
  rw [View.set_slice_whole, Rect.mem_set_unit]
  intro a
  match a with
  | ⟨0, _⟩ =>
    show win1_4.index t 0 * 512 ≤ (j 0).val ∧ (j 0).val < win1_4.index t 0 * 512 + 512
    rw [(index1_4 t).1, htv]; omega
  | ⟨1, _⟩ =>
    show win1_4.index t 1 * 4096 ≤ (j 1).val ∧ (j 1).val < win1_4.index t 1 * 4096 + 4096
    rw [(index1_4 t).2]; omega

/-- Region 1's result array ends holding the down projection with its adapter, of the arrays the region finds. -/
theorem arr1_4 (V : (c : Dev nD) → (b : Ref sig .tc) → Buf (Elt Ideal) ((c : Thread nD τ).loc b)) (c : Dev nD) :
    ((Cert.KernelIdeal.Hand.dat1 (F := Ideal) V c).arrAt 4 cfg1.N : S8192x4096.Idx → EReal)
      = fun j => Cert.Spec.outK (V c main_v17) (V c main_v4) (V c main_v9) (V c main_v10) (j 0) (j 1) :=
  (Cert.KernelIdeal.Hand.dat1 (F := Ideal) V c).arrAt_eq_of_cover 4 (Gout V c) (flushed_eq V c) covered

end Cert.KernelIdeal.Val

end
-- ==== Proof.Val.HostValue.lean ====
/-
  What the two stretches of array operations around the kernel's two launches compute, read as whole
  arrays over the extended reals, from ANY contents W of the buffers.

  Before the launches: the rows of the [4, 2048, 4096] input are laid out as [8192, 4096] (a reshape keeps
  the row-major position: row p is batch p / 2048, position p % 2048); every weight is converted to a
  narrower format, which over the extended reals changes nothing; and each adapter's down-projection
  X · Aᵀ is a transpose followed by a contraction over the model width, i.e. the sum over d of
  X p d · A r d.  After the launches the [8192, 4096] result is laid out as [4, 2048, 4096] again.
-/
import proofs.«127141_j13503377178799_2_alg».proof.Proof.Gen.KernelIdeal.Launch
import proofs.«127141_j13503377178799_2_alg».proof.Proof.Gen.KernelIdeal.Regions
import proofs.«127141_j13503377178799_2_alg».proof.Proof.Val.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Idealize.ShloMosaic Idealize.ShloMosaic.TcCoe Idealize.SL.Sem Idealize.ShloMosaic.StableHlo
open Idealize.ShloMosaic.ValueIdx

/-! ## The operations, one at a time, over arbitrary arrays -/

/-- Laying the [4, 2048, 4096] array out as [8192, 4096] keeps the row-major position:
    ((p / 2048) · 2048 + p % 2048) · 4096 + d = p · 4096 + d. -/
theorem shapeCast_flat (x : S4x2048x4096.Idx → EReal) (h : S4x2048x4096.ShapeCasts S8192x4096) :
    shapeCast S8192x4096 x h = Cert.Spec.flatX x := by
  funext j
  unfold Cert.Spec.flatX
  refine shapeCast_apply x h j _ ?_
  rw [Shape.rowMajor_val_three, Shape.rowMajor_val_two]
  show ((j 0).val / 2048 * 2048 + (j 0).val % 2048) * 4096 + (j 1).val = (j 0).val * 4096 + (j 1).val
  omega

/-- Laying the [8192, 4096] array out as [4, 2048, 4096] keeps the row-major position:
    (b · 2048 + s) · 4096 + d on both sides. -/
theorem shapeCast_unflat (y : S8192x4096.Idx → EReal) (h : S8192x4096.ShapeCasts S4x2048x4096) :
    shapeCast S4x2048x4096 y h = Cert.Spec.unflat y := by
  funext i
  unfold Cert.Spec.unflat
  refine shapeCast_apply y h i _ ?_
  rw [Shape.rowMajor_val_three, Shape.rowMajor_val_two]
  rfl

/-- The transposed adapter read at (d, r) is the adapter at (r, d). -/
theorem transpose_at (a : S16x4096.Idx → EReal) (h : S16x4096.Transposes [1, 0] S4096x16) (d : Fin 4096) (r : Fin 16) :
    transpose S4096x16 [1, 0] a h (ix2 d r) = a (ix2 r d) := by
  refine transpose_apply [1, 0] a h (ix2 d r) (ix2 r d) fun b => ?_
  match b with
  | ⟨0, _⟩ => rfl
  | ⟨1, _⟩ => rfl

/-! ### The contraction over the model width -/

theorem dot_lhs_0 (i : S8192x16.Idx) (q : dot_S8192x4096_S4096x16_S8192x16_1_0_0_1_n_n.contr.Idx) : (dot_S8192x4096_S4096x16_S8192x16_1_0_0_1_n_n.lhsIdx i q 0).val = (i 0).val := by
  unfold DotDims.lhsIdx
  rw [dif_neg (show ¬(0 : Fin S8192x4096.rank) ∈ dot_S8192x4096_S4096x16_S8192x16_1_0_0_1_n_n.lhsBatch by decide), dif_pos (show (0 : Fin S8192x4096.rank) ∈ dot_S8192x4096_S4096x16_S8192x16_1_0_0_1_n_n.lhsNonContracting by decide)]
  rfl
theorem dot_lhs_1 (i : S8192x16.Idx) (q : dot_S8192x4096_S4096x16_S8192x16_1_0_0_1_n_n.contr.Idx) : (dot_S8192x4096_S4096x16_S8192x16_1_0_0_1_n_n.lhsIdx i q 1).val = (q ⟨0, by decide⟩).val :=
  dot_S8192x4096_S4096x16_S8192x16_1_0_0_1_n_n.lhsIdx_val_of_single rfl i q
theorem dot_rhs_0 (i : S8192x16.Idx) (q : dot_S8192x4096_S4096x16_S8192x16_1_0_0_1_n_n.contr.Idx) : (dot_S8192x4096_S4096x16_S8192x16_1_0_0_1_n_n.rhsIdx i q 0).val = (q ⟨0, by decide⟩).val :=
  dot_S8192x4096_S4096x16_S8192x16_1_0_0_1_n_n.rhsIdx_val_of_single rfl i q
theorem dot_rhs_1 (i : S8192x16.Idx) (q : dot_S8192x4096_S4096x16_S8192x16_1_0_0_1_n_n.contr.Idx) : (dot_S8192x4096_S4096x16_S8192x16_1_0_0_1_n_n.rhsIdx i q 1).val = (i 1).val := by
  unfold DotDims.rhsIdx
  rw [dif_neg (show ¬(1 : Fin S4096x16.rank) ∈ dot_S8192x4096_S4096x16_S8192x16_1_0_0_1_n_n.rhsBatch by decide), dif_pos (show (1 : Fin S4096x16.rank) ∈ dot_S8192x4096_S4096x16_S8192x16_1_0_0_1_n_n.rhsNonContracting by decide)]
  rfl

/-- Over the extended reals the contraction of [8192, 4096] with [4096, 16] at (p, r) is the sum over the
    shared axis d of the left operand at (p, d) times the right at (d, r). -/
theorem dot_at (l : FVec Ideal S8192x4096 .bf16) (r : FVec Ideal S4096x16 .bf16) (j : S8192x16.Idx) :
    (Host.dotGeneral (F := Ideal) dot_S8192x4096_S4096x16_S8192x16_1_0_0_1_n_n none l r : FVec Ideal S8192x16 .f32) j = ∑ k : Fin 4096, l (ix2 (j 0) k) * r (ix2 k (j 1)) := by
  simp only [Host.dotGeneral]
  rw [Ideal.dotGeneral_apply, ← Equiv.sum_comp (contrEquiv1 dot_S8192x4096_S4096x16_S8192x16_1_0_0_1_n_n 4096 rfl rfl).symm]
  refine Finset.sum_congr rfl fun k _ => ?_
  have hk := contrEquiv1_symm_val dot_S8192x4096_S4096x16_S8192x16_1_0_0_1_n_n 4096 rfl rfl k
  have el : dot_S8192x4096_S4096x16_S8192x16_1_0_0_1_n_n.lhsIdx j ((contrEquiv1 dot_S8192x4096_S4096x16_S8192x16_1_0_0_1_n_n 4096 rfl rfl).symm k) = ix2 (j 0) k := funext fun a => Fin.ext (by
    match a with
    | ⟨0, _⟩ => exact dot_lhs_0 _ _
    | ⟨1, _⟩ => exact (dot_lhs_1 _ _).trans hk)
  have er : dot_S8192x4096_S4096x16_S8192x16_1_0_0_1_n_n.rhsIdx j ((contrEquiv1 dot_S8192x4096_S4096x16_S8192x16_1_0_0_1_n_n 4096 rfl rfl).symm k) = ix2 k (j 1) := funext fun a => Fin.ext (by
    match a with
    | ⟨0, _⟩ => exact (dot_rhs_0 _ _).trans hk
    | ⟨1, _⟩ => exact dot_rhs_1 _ _)
  rw [el, er]
  rfl

/-- An adapter's down-projection: the rows contracted with the transposed adapter. -/
theorem dot_transpose (X : FVec Ideal S8192x4096 .bf16) (A : FVec Ideal S16x4096 .bf16)
    (h : S16x4096.Transposes [1, 0] S4096x16) :
    ((Host.dotGeneral (F := Ideal) dot_S8192x4096_S4096x16_S8192x16_1_0_0_1_n_n none X (transpose S4096x16 [1, 0] A h : FVec Ideal S4096x16 .bf16) : FVec Ideal S8192x16 .f32)
        : S8192x16.Idx → EReal) = Cert.Spec.xaK X A := by
  funext j
  unfold Cert.Spec.xaK
  refine (dot_at X _ j).trans (Finset.sum_congr rfl fun d _ => ?_)
  rw [transpose_at A h d (j 1)]

/-! ## The stretch before the launches -/

section Before

variable (W : Valuation τ sig (Elt Ideal))

/-- The rows, flattened (and converted, which changes nothing). -/
theorem after0_main_v1 :
    (StableHlo.after (Gen.hostOps0 (F := Ideal)) W (Proc.devRef .tc main_v1) : S8192x4096.Idx → EReal)
      = Cert.Spec.flatX (W (Proc.devRef .tc main_arg0)) := by
  have e : (StableHlo.after (Gen.hostOps0 (F := Ideal)) W (Proc.devRef .tc main_v1) : S8192x4096.Idx → EReal)
      = shapeCast S8192x4096 (W (Proc.devRef .tc main_arg0) : S4x2048x4096.Idx → EReal) Facts₀.shapeCasts_S4x2048x4096_S8192x4096 := by
    show StableHlo.after (Gen.hostOps0 (F := Ideal)) W (Proc.devRef .tc main_v1) = _
    after_results
    rfl
  rw [e]
  exact shapeCast_flat _ _

/-- The first map's weight, converted: unchanged. -/
theorem after0_main_v2 :
    (StableHlo.after (Gen.hostOps0 (F := Ideal)) W (Proc.devRef .tc main_v2) : S11008x4096.Idx → EReal) = W (Proc.devRef .tc main_arg1) := by
  show StableHlo.after (Gen.hostOps0 (F := Ideal)) W (Proc.devRef .tc main_v2) = _
  after_results
  rfl

/-- The second map's weight, converted: unchanged. -/
theorem after0_main_v3 :
    (StableHlo.after (Gen.hostOps0 (F := Ideal)) W (Proc.devRef .tc main_v3) : S11008x4096.Idx → EReal) = W (Proc.devRef .tc main_arg2) := by
  show StableHlo.after (Gen.hostOps0 (F := Ideal)) W (Proc.devRef .tc main_v3) = _
  after_results
  rfl

/-- The down projection's weight, converted: unchanged. -/
theorem after0_main_v4 :
    (StableHlo.after (Gen.hostOps0 (F := Ideal)) W (Proc.devRef .tc main_v4) : S4096x11008.Idx → EReal) = W (Proc.devRef .tc main_arg3) := by
  show StableHlo.after (Gen.hostOps0 (F := Ideal)) W (Proc.devRef .tc main_v4) = _
  after_results
  rfl

/-- The first adapter's up-projection, converted: unchanged. -/
theorem after0_main_v6 :
    (StableHlo.after (Gen.hostOps0 (F := Ideal)) W (Proc.devRef .tc main_v6) : S11008x16.Idx → EReal) = W (Proc.devRef .tc main_arg5) := by
  show StableHlo.after (Gen.hostOps0 (F := Ideal)) W (Proc.devRef .tc main_v6) = _
  after_results
  rfl

/-- The second adapter's up-projection, converted: unchanged. -/
theorem after0_main_v8 :
    (StableHlo.after (Gen.hostOps0 (F := Ideal)) W (Proc.devRef .tc main_v8) : S11008x16.Idx → EReal) = W (Proc.devRef .tc main_arg7) := by
  show StableHlo.after (Gen.hostOps0 (F := Ideal)) W (Proc.devRef .tc main_v8) = _
  after_results
  rfl

/-- The down projection's adapter, first factor, converted: unchanged. -/
theorem after0_main_v9 :
    (StableHlo.after (Gen.hostOps0 (F := Ideal)) W (Proc.devRef .tc main_v9) : S16x11008.Idx → EReal) = W (Proc.devRef .tc main_arg8) := by
  show StableHlo.after (Gen.hostOps0 (F := Ideal)) W (Proc.devRef .tc main_v9) = _
  after_results
  rfl

/-- The down projection's adapter, second factor, converted: unchanged. -/
theorem after0_main_v10 :
    (StableHlo.after (Gen.hostOps0 (F := Ideal)) W (Proc.devRef .tc main_v10) : S4096x16.Idx → EReal) = W (Proc.devRef .tc main_arg9) := by
  show StableHlo.after (Gen.hostOps0 (F := Ideal)) W (Proc.devRef .tc main_v10) = _
  after_results
  rfl

/-- The first adapter's down-projection of the flattened rows. -/
theorem after0_main_v13 :
    (StableHlo.after (Gen.hostOps0 (F := Ideal)) W (Proc.devRef .tc main_v13) : S8192x16.Idx → EReal)
      = Cert.Spec.xaK (Cert.Spec.flatX (W (Proc.devRef .tc main_arg0))) (W (Proc.devRef .tc main_arg4)) := by
  have e : (StableHlo.after (Gen.hostOps0 (F := Ideal)) W (Proc.devRef .tc main_v13) : S8192x16.Idx → EReal)
      = Host.dotGeneral (F := Ideal) dot_S8192x4096_S4096x16_S8192x16_1_0_0_1_n_n none
          (shapeCast S8192x4096 (W (Proc.devRef .tc main_arg0) : S4x2048x4096.Idx → EReal) Facts₀.shapeCasts_S4x2048x4096_S8192x4096 : FVec Ideal S8192x4096 .bf16)
          (transpose S4096x16 [1, 0] (W (Proc.devRef .tc main_arg4) : FVec Ideal S16x4096 .bf16) Facts₀.transposes_S16x4096_S4096x16_1_0 : FVec Ideal S4096x16 .bf16) := by
    show StableHlo.after (Gen.hostOps0 (F := Ideal)) W (Proc.devRef .tc main_v13) = _
    after_results
    rfl
  rw [e]
  refine (dot_transpose _ _ _).trans ?_
  rw [shapeCast_flat]

/-- The second adapter's down-projection of the flattened rows. -/
theorem after0_main_v16 :
    (StableHlo.after (Gen.hostOps0 (F := Ideal)) W (Proc.devRef .tc main_v16) : S8192x16.Idx → EReal)
      = Cert.Spec.xaK (Cert.Spec.flatX (W (Proc.devRef .tc main_arg0))) (W (Proc.devRef .tc main_arg6)) := by
  have e : (StableHlo.after (Gen.hostOps0 (F := Ideal)) W (Proc.devRef .tc main_v16) : S8192x16.Idx → EReal)
      = Host.dotGeneral (F := Ideal) dot_S8192x4096_S4096x16_S8192x16_1_0_0_1_n_n none
          (shapeCast S8192x4096 (W (Proc.devRef .tc main_arg0) : S4x2048x4096.Idx → EReal) Facts₀.shapeCasts_S4x2048x4096_S8192x4096 : FVec Ideal S8192x4096 .bf16)
          (transpose S4096x16 [1, 0] (W (Proc.devRef .tc main_arg6) : FVec Ideal S16x4096 .bf16) Facts₀.transposes_S16x4096_S4096x16_1_0 : FVec Ideal S4096x16 .bf16) := by
    show StableHlo.after (Gen.hostOps0 (F := Ideal)) W (Proc.devRef .tc main_v16) = _
    after_results
    rfl
  rw [e]
  refine (dot_transpose _ _ _).trans ?_
  rw [shapeCast_flat]

end Before

/-! ## The stretch after the launches -/

section After

variable (W : Valuation τ sig (Elt Ideal))

/-- The result, laid out as [4, 2048, 4096] again. -/
theorem after2_main_v19 :
    (StableHlo.after (Gen.hostOps2 (F := Ideal)) W (Proc.devRef .tc main_v19) : S4x2048x4096.Idx → EReal)
      = Cert.Spec.unflat (W (Proc.devRef .tc main_v18)) := by
  have e : (StableHlo.after (Gen.hostOps2 (F := Ideal)) W (Proc.devRef .tc main_v19) : S4x2048x4096.Idx → EReal)
      = shapeCast S4x2048x4096 (W (Proc.devRef .tc main_v18) : S8192x4096.Idx → EReal) Facts₀.shapeCasts_S8192x4096_S4x2048x4096 := by
    show StableHlo.after (Gen.hostOps2 (F := Ideal)) W (Proc.devRef .tc main_v19) = _
    after_results
    rfl
  rw [e]
  exact shapeCast_unflat _ _

/-- The last stretch writes the result buffer only: every other buffer keeps its contents. -/
theorem after2_of_ne (r : Ref sig .tc) (h : r ∉ Gen.hostOps2_W) :
    StableHlo.after (Gen.hostOps2 (F := Ideal)) W (Proc.devRef .tc r) = W (Proc.devRef .tc r) :=
  StableHlo.after_of_writes_sub Gen.hostOps2 W Gen.hostOps2_writes h

/-- The first stretch writes its seventeen results only: every other buffer keeps its contents. -/
theorem after0_of_ne (r : Ref sig .tc) (h : r ∉ Gen.hostOps0_W) :
    StableHlo.after (Gen.hostOps0 (F := Ideal)) W (Proc.devRef .tc r) = W (Proc.devRef .tc r) :=
  StableHlo.after_of_writes_sub Gen.hostOps0 W Gen.hostOps0_writes h

end After

end Cert.KernelIdeal.Val

end
-- ==== Proof.Val.Bridge.lean ====
/-
  The idealized kernel's result as one function of its argument arrays.

  The run ends with every unscoped buffer at the last boundary's contents.  Reading the result
  buffer back through the boundaries: the last host stretch lays the down projection's output out
  as [4, 2048, 4096]; that output is the second launch's array, the down projection with its
  adapter of the first launch's array (the gated activation) and of the converted weights; the
  gated activation is of the flattened rows, the converted weights and the two adapter
  down-projections the first host stretch computes; and a conversion changes nothing on the
  extended reals.  Composed, the result is the specification's function of the ten arguments.
-/
import proofs.«127141_j13503377178799_2_alg».proof.Proof.KI.Run
import proofs.«127141_j13503377178799_2_alg».proof.Proof.Val.Spec
import proofs.«127141_j13503377178799_2_alg».proof.Proof.Val.R0Value
import proofs.«127141_j13503377178799_2_alg».proof.Proof.Val.R1Value
import proofs.«127141_j13503377178799_2_alg».proof.Proof.Val.HostValue

noncomputable section

namespace Cert.KernelIdeal.Val

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The second launch's output array: the down projection of the first launch's output and the converted weights. -/
theorem W3_v18 (c : Dev nD) :
    (W3 (F := Ideal) m ρ c (Proc.devRef .tc main_v18) : S8192x4096.Idx → EReal)
      = fun j => Cert.Spec.outK (V2 (F := Ideal) m ρ c main_v17) (V2 (F := Ideal) m ρ c main_v4) (V2 (F := Ideal) m ρ c main_v9) (V2 (F := Ideal) m ρ c main_v10) (j 0) (j 1) :=
  (W3_arr (F := Ideal) m ρ c 4).trans (arr1_4 (V2 (F := Ideal) m ρ) c)

/-- The first launch's output array: the gated activation of what the first host stretch left. -/
theorem V2_v17 (c : Dev nD) :
    (V2 (F := Ideal) m ρ c main_v17 : S8192x11008.Idx → EReal)
      = fun j => Cert.Spec.gateK (V1 (F := Ideal) m ρ c main_v1) (V1 (F := Ideal) m ρ c main_v2) (V1 (F := Ideal) m ρ c main_v13) (V1 (F := Ideal) m ρ c main_v6) (V1 (F := Ideal) m ρ c main_v3) (V1 (F := Ideal) m ρ c main_v16) (V1 (F := Ideal) m ρ c main_v8) (j 0) (j 1) :=
  (W2_arr (F := Ideal) m ρ c 7).trans (arr0_7 (V1 (F := Ideal) m ρ) c)

/-- The first launch leaves the down projection's weight as the host stretch converted it: the argument itself. -/
theorem V2_v4 (c : Dev nD) : (V2 (F := Ideal) m ρ c main_v4 : S4096x11008.Idx → EReal) = (m ((c : Thread nD τ).loc main_arg3)) :=
  (W2_of_ne (F := Ideal) m ρ c main_v4 (by decide)).trans (after0_main_v4 (W0 (F := Ideal) m ρ c))
theorem V2_v9 (c : Dev nD) : (V2 (F := Ideal) m ρ c main_v9 : S16x11008.Idx → EReal) = (m ((c : Thread nD τ).loc main_arg8)) :=
  (W2_of_ne (F := Ideal) m ρ c main_v9 (by decide)).trans (after0_main_v9 (W0 (F := Ideal) m ρ c))
theorem V2_v10 (c : Dev nD) : (V2 (F := Ideal) m ρ c main_v10 : S4096x16.Idx → EReal) = (m ((c : Thread nD τ).loc main_arg9)) :=
  (W2_of_ne (F := Ideal) m ρ c main_v10 (by decide)).trans (after0_main_v10 (W0 (F := Ideal) m ρ c))

/-- THE RESULT: after the run the result buffer holds the specification's function of the launch contents of the ten
    argument arrays. -/
theorem W4_result (c : Dev nD) :
    (W4 (F := Ideal) m ρ c (Proc.devRef .tc main_v19) : S4x2048x4096.Idx → EReal)
      = Cert.Spec.resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h19 : (W4 (F := Ideal) m ρ c (Proc.devRef .tc main_v19) : S4x2048x4096.Idx → EReal)
      = Cert.Spec.unflat (W3 (F := Ideal) m ρ c (Proc.devRef .tc main_v18)) := after2_main_v19 (W3 (F := Ideal) m ρ c)
  have h1 : (V1 (F := Ideal) m ρ c main_v1 : S8192x4096.Idx → EReal) = Cert.Spec.flatX (m ((c : Thread nD τ).loc main_arg0)) := after0_main_v1 (W0 (F := Ideal) m ρ c)
  have h2 : (V1 (F := Ideal) m ρ c main_v2 : S11008x4096.Idx → EReal) = (m ((c : Thread nD τ).loc main_arg1)) := after0_main_v2 (W0 (F := Ideal) m ρ c)
  have h3 : (V1 (F := Ideal) m ρ c main_v3 : S11008x4096.Idx → EReal) = (m ((c : Thread nD τ).loc main_arg2)) := after0_main_v3 (W0 (F := Ideal) m ρ c)
  have h6 : (V1 (F := Ideal) m ρ c main_v6 : S11008x16.Idx → EReal) = (m ((c : Thread nD τ).loc main_arg5)) := after0_main_v6 (W0 (F := Ideal) m ρ c)
  have h8 : (V1 (F := Ideal) m ρ c main_v8 : S11008x16.Idx → EReal) = (m ((c : Thread nD τ).loc main_arg7)) := after0_main_v8 (W0 (F := Ideal) m ρ c)
  have h13 : (V1 (F := Ideal) m ρ c main_v13 : S8192x16.Idx → EReal) = Cert.Spec.xaK (Cert.Spec.flatX (m ((c : Thread nD τ).loc main_arg0))) (m ((c : Thread nD τ).loc main_arg4)) := after0_main_v13 (W0 (F := Ideal) m ρ c)
  have h16 : (V1 (F := Ideal) m ρ c main_v16 : S8192x16.Idx → EReal) = Cert.Spec.xaK (Cert.Spec.flatX (m ((c : Thread nD τ).loc main_arg0))) (m ((c : Thread nD τ).loc main_arg6)) := after0_main_v16 (W0 (F := Ideal) m ρ c)
  rw [h19, W3_v18 m ρ c, V2_v17 m ρ c, V2_v4 m ρ c, V2_v9 m ρ c, V2_v10 m ρ c, h1, h2, h3, h6, h8, h13, h16]
  rfl

end Cert.KernelIdeal.Val

end
-- ==== Proof.Val.RefValue.lean ====
/-
  The reference program's result is the specification, index by index.

  The reference works on arrays arranged [4, 2048, ·]: each of its three linear maps is a contraction
  over the last axis plus the adapter's two-step contraction times two, and between them stands the
  gated activation h · (1 / (1 + e^(-h))) · h'.  Read at an index (b, s, ·) every stage is a sum over
  the contracted axis of products of entries; the specification is the same sums on the rows
  p = b · 2048 + s, since (b · 2048 + s) / 2048 = b and (b · 2048 + s) % 2048 = s.  On the extended
  reals the logistic function is 1 / (1 + e^(-h)) by definition, and the word 0x3F800000 denotes 1.
-/
import proofs.«127141_j13503377178799_2_alg».proof.Proof.Gen.ReferenceIdeal.Read
import proofs.«127141_j13503377178799_2_alg».proof.Proof.Val.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

/-- Row b · 2048 + s of the flattened arrangement. -/
abbrev row (b : Fin 4) (s : Fin 2048) : Fin 8192 := ⟨b.val * 2048 + s.val, unflat_lt b s⟩

/-- The word 0x3F800000 denotes 1. -/
theorem ofBits_one : Ideal.ofBits .f32 0x3F800000#32 = 1 := by
  simp [Ideal.ofBits, Ideal.ieee, -EReal.coe_mul]; norm_num

/-- Row b · 2048 + s of the flattened array is batch b, position s of the array. -/
theorem flatX_row (x : Arr3 4 2048 4096) (b : Fin 4) (s : Fin 2048) (d : Fin 4096) :
    flatX x (ix2 (row b s) d) = x (ix3 b s d) := by
  have e0 : (⟨(row b s).val / 2048, flat_div_lt (row b s)⟩ : Fin 4) = b := Fin.ext (by show (b.val * 2048 + s.val) / 2048 = b.val; omega)
  have e1 : (⟨(row b s).val % 2048, flat_mod_lt (row b s)⟩ : Fin 2048) = s := Fin.ext (by show (b.val * 2048 + s.val) % 2048 = s.val; omega)
  show x (ix3 ⟨(row b s).val / 2048, flat_div_lt (row b s)⟩ ⟨(row b s).val % 2048, flat_mod_lt (row b s)⟩ d) = x (ix3 b s d)
  rw [e0, e1]

/-! The contractions' index functions at an index (b, s, c): the left operand is read at (b, s, k), the right at (c, k). -/
theorem lidx_v0 (b : Fin 4) (s : Fin 2048) (c : Fin 11008) (k : Fin 4096) :
    Read.lidx_main_v0 (ix3 b s c) k = ix3 b s k :=
  funext fun a => by match a with | ⟨0, _⟩ => rfl | ⟨1, _⟩ => rfl | ⟨2, _⟩ => rfl
theorem ridx_v0 (b : Fin 4) (s : Fin 2048) (c : Fin 11008) (k : Fin 4096) :
    Read.ridx_main_v0 (ix3 b s c) k = ix2 c k :=
  funext fun a => by match a with | ⟨0, _⟩ => rfl | ⟨1, _⟩ => rfl
theorem lidx_v1 (b : Fin 4) (s : Fin 2048) (c : Fin 16) (k : Fin 4096) :
    Read.lidx_main_v1 (ix3 b s c) k = ix3 b s k :=
  funext fun a => by match a with | ⟨0, _⟩ => rfl | ⟨1, _⟩ => rfl | ⟨2, _⟩ => rfl
theorem ridx_v1 (b : Fin 4) (s : Fin 2048) (c : Fin 16) (k : Fin 4096) :
    Read.ridx_main_v1 (ix3 b s c) k = ix2 c k :=
  funext fun a => by match a with | ⟨0, _⟩ => rfl | ⟨1, _⟩ => rfl
theorem lidx_v2 (b : Fin 4) (s : Fin 2048) (c : Fin 11008) (k : Fin 16) :
    Read.lidx_main_v2 (ix3 b s c) k = ix3 b s k :=
  funext fun a => by match a with | ⟨0, _⟩ => rfl | ⟨1, _⟩ => rfl | ⟨2, _⟩ => rfl
theorem ridx_v2 (b : Fin 4) (s : Fin 2048) (c : Fin 11008) (k : Fin 16) :
    Read.ridx_main_v2 (ix3 b s c) k = ix2 c k :=
  funext fun a => by match a with | ⟨0, _⟩ => rfl | ⟨1, _⟩ => rfl
theorem lidx_v6 (b : Fin 4) (s : Fin 2048) (c : Fin 11008) (k : Fin 4096) :
    Read.lidx_main_v6 (ix3 b s c) k = ix3 b s k :=
  funext fun a => by match a with | ⟨0, _⟩ => rfl | ⟨1, _⟩ => rfl | ⟨2, _⟩ => rfl
theorem ridx_v6 (b : Fin 4) (s : Fin 2048) (c : Fin 11008) (k : Fin 4096) :
    Read.ridx_main_v6 (ix3 b s c) k = ix2 c k :=
  funext fun a => by match a with | ⟨0, _⟩ => rfl | ⟨1, _⟩ => rfl
theorem lidx_v7 (b : Fin 4) (s : Fin 2048) (c : Fin 16) (k : Fin 4096) :
    Read.lidx_main_v7 (ix3 b s c) k = ix3 b s k :=
  funext fun a => by match a with | ⟨0, _⟩ => rfl | ⟨1, _⟩ => rfl | ⟨2, _⟩ => rfl
theorem ridx_v7 (b : Fin 4) (s : Fin 2048) (c : Fin 16) (k : Fin 4096) :
    Read.ridx_main_v7 (ix3 b s c) k = ix2 c k :=
  funext fun a => by match a with | ⟨0, _⟩ => rfl | ⟨1, _⟩ => rfl
theorem lidx_v8 (b : Fin 4) (s : Fin 2048) (c : Fin 11008) (k : Fin 16) :
    Read.lidx_main_v8 (ix3 b s c) k = ix3 b s k :=
  funext fun a => by match a with | ⟨0, _⟩ => rfl | ⟨1, _⟩ => rfl | ⟨2, _⟩ => rfl
theorem ridx_v8 (b : Fin 4) (s : Fin 2048) (c : Fin 11008) (k : Fin 16) :
    Read.ridx_main_v8 (ix3 b s c) k = ix2 c k :=
  funext fun a => by match a with | ⟨0, _⟩ => rfl | ⟨1, _⟩ => rfl
theorem lidx_v14 (b : Fin 4) (s : Fin 2048) (c : Fin 4096) (k : Fin 11008) :
    Read.lidx_main_v14 (ix3 b s c) k = ix3 b s k :=
  funext fun a => by match a with | ⟨0, _⟩ => rfl | ⟨1, _⟩ => rfl | ⟨2, _⟩ => rfl
theorem ridx_v14 (b : Fin 4) (s : Fin 2048) (c : Fin 4096) (k : Fin 11008) :
    Read.ridx_main_v14 (ix3 b s c) k = ix2 c k :=
  funext fun a => by match a with | ⟨0, _⟩ => rfl | ⟨1, _⟩ => rfl
theorem lidx_v15 (b : Fin 4) (s : Fin 2048) (c : Fin 16) (k : Fin 11008) :
    Read.lidx_main_v15 (ix3 b s c) k = ix3 b s k :=
  funext fun a => by match a with | ⟨0, _⟩ => rfl | ⟨1, _⟩ => rfl | ⟨2, _⟩ => rfl
theorem ridx_v15 (b : Fin 4) (s : Fin 2048) (c : Fin 16) (k : Fin 11008) :
    Read.ridx_main_v15 (ix3 b s c) k = ix2 c k :=
  funext fun a => by match a with | ⟨0, _⟩ => rfl | ⟨1, _⟩ => rfl
theorem lidx_v16 (b : Fin 4) (s : Fin 2048) (c : Fin 4096) (k : Fin 16) :
    Read.lidx_main_v16 (ix3 b s c) k = ix3 b s k :=
  funext fun a => by match a with | ⟨0, _⟩ => rfl | ⟨1, _⟩ => rfl | ⟨2, _⟩ => rfl
theorem ridx_v16 (b : Fin 4) (s : Fin 2048) (c : Fin 4096) (k : Fin 16) :
    Read.ridx_main_v16 (ix3 b s c) k = ix2 c k :=
  funext fun a => by match a with | ⟨0, _⟩ => rfl | ⟨1, _⟩ => rfl

/-! ## The stages, read at an index (b, s, ·), over arbitrary operand arrays -/

/-- The first adapter's down-projection at (b, s, r) is the specification's on row b · 2048 + s. -/
theorem xa1_eq (x : (⟨S4x2048x4096, .f32⟩ : BufTy).Contents (Elt Ideal)) (a : (⟨S16x4096, .f32⟩ : BufTy).Contents (Elt Ideal)) (b : Fin 4) (s : Fin 2048) (r : Fin 16) :
    Read.val_main_v1 (F := Ideal) x a (ix3 b s r) = xaK (flatX x) a (ix2 (row b s) r) := by
  rw [Read.val_main_v1_apply]
  show _ = ∑ d : Fin 4096, flatX x (ix2 (row b s) d) * a (ix2 r d)
  refine Finset.sum_congr rfl fun k _ => ?_
  rw [lidx_v1, ridx_v1, flatX_row]

/-- The second adapter's down-projection at (b, s, r), likewise. -/
theorem xa3_eq (x : (⟨S4x2048x4096, .f32⟩ : BufTy).Contents (Elt Ideal)) (a : (⟨S16x4096, .f32⟩ : BufTy).Contents (Elt Ideal)) (b : Fin 4) (s : Fin 2048) (r : Fin 16) :
    Read.val_main_v7 (F := Ideal) x a (ix3 b s r) = xaK (flatX x) a (ix2 (row b s) r) := by
  rw [Read.val_main_v7_apply]
  show _ = ∑ d : Fin 4096, flatX x (ix2 (row b s) d) * a (ix2 r d)
  refine Finset.sum_congr rfl fun k _ => ?_
  rw [lidx_v7, ridx_v7, flatX_row]

/-- The first linear map with its adapter at (b, s, h): the contraction over the model width plus the
    adapter's contraction over its rank times two. -/
theorem hlin1_eq (x : (⟨S4x2048x4096, .f32⟩ : BufTy).Contents (Elt Ideal)) (w : (⟨S11008x4096, .f32⟩ : BufTy).Contents (Elt Ideal)) (a : (⟨S16x4096, .f32⟩ : BufTy).Contents (Elt Ideal)) (bb : (⟨S11008x16, .f32⟩ : BufTy).Contents (Elt Ideal))
    (b : Fin 4) (s : Fin 2048) (h : Fin 11008) :
    Read.val_main_v5 (F := Ideal) x w a bb (ix3 b s h) = hlinK (flatX x) w (xaK (flatX x) a) bb (row b s) h := by
  rw [Read.val_main_v5_apply, Read.val_main_v4_apply, Read.val_main_v3_apply, Read.val_main_cst_apply,
    Read.val_main_v2_apply, Read.val_main_v0_apply]
  simp only [Ideal.addf_def, Ideal.mulf_def, Ideal.ofBits_def]
  unfold hlinK two
  congr 1
  · refine Finset.sum_congr rfl fun k _ => ?_
    rw [lidx_v0, ridx_v0, flatX_row]
  · congr 1
    refine Finset.sum_congr rfl fun k _ => ?_
    rw [lidx_v2, ridx_v2, xa1_eq]

/-- The second linear map with its adapter at (b, s, h), likewise. -/
theorem hlin3_eq (x : (⟨S4x2048x4096, .f32⟩ : BufTy).Contents (Elt Ideal)) (w : (⟨S11008x4096, .f32⟩ : BufTy).Contents (Elt Ideal)) (a : (⟨S16x4096, .f32⟩ : BufTy).Contents (Elt Ideal)) (bb : (⟨S11008x16, .f32⟩ : BufTy).Contents (Elt Ideal))
    (b : Fin 4) (s : Fin 2048) (h : Fin 11008) :
    Read.val_main_v11 (F := Ideal) x w a bb (ix3 b s h) = hlinK (flatX x) w (xaK (flatX x) a) bb (row b s) h := by
  rw [Read.val_main_v11_apply, Read.val_main_v10_apply, Read.val_main_v9_apply, Read.val_main_cst_0_apply,
    Read.val_main_v8_apply, Read.val_main_v6_apply]
  simp only [Ideal.addf_def, Ideal.mulf_def, Ideal.ofBits_def]
  unfold hlinK two
  congr 1
  · refine Finset.sum_congr rfl fun k _ => ?_
    rw [lidx_v6, ridx_v6, flatX_row]
  · congr 1
    refine Finset.sum_congr rfl fun k _ => ?_
    rw [lidx_v8, ridx_v8, xa3_eq]

/-- The gated activation at (b, s, h): with h₁, h₃ the two linear maps there, the program's
    (h₁ · (1 / (1 + e^(-h₁)))) · h₃ is the specification's (h₁ · logistic h₁) · h₃, the logistic function
    being that quotient by definition. -/
theorem gate_eq (x : (⟨S4x2048x4096, .f32⟩ : BufTy).Contents (Elt Ideal)) (w1 w3 : (⟨S11008x4096, .f32⟩ : BufTy).Contents (Elt Ideal)) (a1 : (⟨S16x4096, .f32⟩ : BufTy).Contents (Elt Ideal)) (b1 : (⟨S11008x16, .f32⟩ : BufTy).Contents (Elt Ideal))
    (a3 : (⟨S16x4096, .f32⟩ : BufTy).Contents (Elt Ideal)) (b3 : (⟨S11008x16, .f32⟩ : BufTy).Contents (Elt Ideal)) (b : Fin 4) (s : Fin 2048) (h : Fin 11008) :
    Read.val_main_v13 (F := Ideal) x w1 w3 a1 b1 a3 b3 (ix3 b s h)
      = gateK (flatX x) w1 (xaK (flatX x) a1) b1 w3 (xaK (flatX x) a3) b3 (row b s) h := by
  rw [Read.val_main_v13_apply, Read.val_main_v12_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, hlin1_eq, hlin3_eq]
  unfold gateK
  generalize hlinK (flatX x) w1 (xaK (flatX x) a1) b1 (row b s) h = h1
  generalize hlinK (flatX x) w3 (xaK (flatX x) a3) b3 (row b s) h = h3
  simp only [Ideal.addf_def, Ideal.mulf_def, Ideal.ofBits_def, Ideal.hostDivf_def, Ideal.hostUnary_exp_def,
    Ideal.hostNegf_def, Ideal.negf_def, ofBits_one]
  rfl

/-- The down projection with its adapter at (b, s, o), the gated activation under it. -/
theorem out_eq (x : (⟨S4x2048x4096, .f32⟩ : BufTy).Contents (Elt Ideal)) (w1 w3 : (⟨S11008x4096, .f32⟩ : BufTy).Contents (Elt Ideal)) (w2 : (⟨S4096x11008, .f32⟩ : BufTy).Contents (Elt Ideal)) (a1 : (⟨S16x4096, .f32⟩ : BufTy).Contents (Elt Ideal))
    (b1 : (⟨S11008x16, .f32⟩ : BufTy).Contents (Elt Ideal)) (a3 : (⟨S16x4096, .f32⟩ : BufTy).Contents (Elt Ideal)) (b3 : (⟨S11008x16, .f32⟩ : BufTy).Contents (Elt Ideal)) (a2 : (⟨S16x11008, .f32⟩ : BufTy).Contents (Elt Ideal)) (b2 : (⟨S4096x16, .f32⟩ : BufTy).Contents (Elt Ideal))
    (b : Fin 4) (s : Fin 2048) (o : Fin 4096) :
    Read.val_main_v19 (F := Ideal) x w1 w3 w2 a1 b1 a3 b3 a2 b2 (ix3 b s o)
      = outK (fun j' => gateK (flatX x) w1 (xaK (flatX x) a1) b1 w3 (xaK (flatX x) a3) b3 (j' 0) (j' 1)) w2 a2 b2 (row b s) o := by
  rw [Read.val_main_v19_apply, Read.val_main_v18_apply, Read.val_main_v17_apply, Read.val_main_cst_1_apply,
    Read.val_main_v16_apply, Read.val_main_v14_apply]
  simp only [Ideal.addf_def, Ideal.mulf_def, Ideal.ofBits_def]
  unfold outK two
  congr 1
  · refine Finset.sum_congr rfl fun k _ => ?_
    rw [lidx_v14, ridx_v14, gate_eq]
  · congr 1
    refine Finset.sum_congr rfl fun r _ => ?_
    rw [lidx_v16, ridx_v16, Read.val_main_v15_apply]
    congr 1
    refine Finset.sum_congr rfl fun k _ => ?_
    rw [lidx_v15, ridx_v15, gate_eq]

/-! ## The result -/

/-- The reference's last stage, as a function of the ten argument arrays, is the specification. -/
theorem val_eq (x : (⟨S4x2048x4096, .f32⟩ : BufTy).Contents (Elt Ideal)) (w1 w3 : (⟨S11008x4096, .f32⟩ : BufTy).Contents (Elt Ideal)) (w2 : (⟨S4096x11008, .f32⟩ : BufTy).Contents (Elt Ideal)) (a1 : (⟨S16x4096, .f32⟩ : BufTy).Contents (Elt Ideal))
    (b1 : (⟨S11008x16, .f32⟩ : BufTy).Contents (Elt Ideal)) (a3 : (⟨S16x4096, .f32⟩ : BufTy).Contents (Elt Ideal)) (b3 : (⟨S11008x16, .f32⟩ : BufTy).Contents (Elt Ideal)) (a2 : (⟨S16x11008, .f32⟩ : BufTy).Contents (Elt Ideal)) (b2 : (⟨S4096x16, .f32⟩ : BufTy).Contents (Elt Ideal)) :
    Read.val_main_v19 (F := Ideal) x w1 w3 w2 a1 b1 a3 b3 a2 b2 = resultOf x w1 w3 w2 a1 b1 a3 b3 a2 b2 := by
  funext i
  obtain ⟨b, s, o, rfl⟩ : ∃ b s o, i = ix3 b s o := ⟨i 0, i 1, i 2, eq_ix3 i⟩
  exact out_eq x w1 w3 w2 a1 b1 a3 b3 a2 b2 b s o

/-- The term the reference's run states for its result is the specification of the argument arrays. -/
theorem result_eq (m : (ℓ : Loc nD τ sig) → Buf (Elt Ideal) ℓ) (c : Dev nD) :
    Cert.ReferenceIdeal.Value.res_main_v19 (F := Ideal) m c
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) :=
  (Read.val_main_v19_eq (F := Ideal) m c).trans (val_eq _ _ _ _ _ _ _ _ _ _)

end Cert.ReferenceIdeal.RefValue

end
-- ==== Proof.lean ====
/-
  The certificate of a SwiGLU feed-forward block with rank-16 adapters, computed by two kernel
  launches, against its plain description.

  The three programs.  The kernel's @main converts the arguments, flattens the rows, forms the two
  adapter down-projections on the host, launches the gate (per 1024 x 256 tile: two matrix products
  over the full model width plus their adapter terms, the gated activation) and then the down
  projection (per 512-row tile the 43 hidden blocks are accumulated in the output tile, which stays
  in its staging buffer, and in a 512 x 16 accumulator; after the last block the adapter's
  up-projection of the accumulator, scaled, is added), and reshapes the result.  The reference is
  eleven einsums, sums and products on the host.

  Frames.  Each kernel program runs through its four segments (host stretch, launch, launch, host
  stretch); every argument array is read only, so it ends as launched.  The proof is the same text
  for the word-level and the idealized program.  The reference's frame is its run with the result
  dropped.

  Values.  On the extended reals a conversion between float formats is the identity, a matrix
  product into a zero accumulator is the plain sum, the kernel's logistic and the reference's
  1 / (1 + exp (-x)) are one function, and a sum over the 11008 hidden features is the sum over
  the 43 blocks of the sums inside each block, accumulated from zero — only commutativity and
  associativity of addition are used, so no finiteness of the inputs is needed.  Both programs end
  at the specification's function of the ten arguments.

  The idealization rewrote nothing, so there is nothing to preserve.
-/
import proofs.«127141_j13503377178799_2_alg».proof.Defs
import proofs.«127141_j13503377178799_2_alg».proof.Proof.Gen.Kernel
import proofs.«127141_j13503377178799_2_alg».proof.Proof.Gen.KernelIdeal
import proofs.«127141_j13503377178799_2_alg».proof.Proof.Gen.ReferenceIdeal
import proofs.«127141_j13503377178799_2_alg».proof.Proof.Gen.ReferenceIdeal.Run
import proofs.«127141_j13503377178799_2_alg».proof.Proof.Gen.ReferenceIdeal.Read
import proofs.«127141_j13503377178799_2_alg».proof.Proof.Gen.Pre_finite_inputs
import proofs.«127141_j13503377178799_2_alg».proof.Proof.K.Run
import proofs.«127141_j13503377178799_2_alg».proof.Proof.KI.Run
import proofs.«127141_j13503377178799_2_alg».proof.Proof.Val.Bridge
import proofs.«127141_j13503377178799_2_alg».proof.Proof.Val.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end at the specification's function of the ten arguments. -/
theorem algebraic : Cert.algebraic_KernelIdeal_ReferenceIdeal := by
  intro m ρ m' ρ' _ hagree
  refine ⟨fun c => Cert.Spec.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine Cert.KernelIdeal.Hand.run_post (F := Ideal) m ρ (fun s h c => ⟨?_, ?_, ?_, ?_, ?_, ?_, ?_, ?_, ?_, ?_, ?_⟩)
    · exact (h c _ (Cert.KernelIdeal.Hand.mem_uc Cert.KernelIdeal.main_v19 (by decide))).trans (Cert.KernelIdeal.Val.W4_result m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
    · exact (h c _ (Cert.KernelIdeal.Hand.mem_uc Cert.KernelIdeal.main_arg4 (by decide))).trans (Cert.KernelIdeal.Hand.W4_main_arg4 m ρ c)
    · exact (h c _ (Cert.KernelIdeal.Hand.mem_uc Cert.KernelIdeal.main_arg5 (by decide))).trans (Cert.KernelIdeal.Hand.W4_main_arg5 m ρ c)
    · exact (h c _ (Cert.KernelIdeal.Hand.mem_uc Cert.KernelIdeal.main_arg6 (by decide))).trans (Cert.KernelIdeal.Hand.W4_main_arg6 m ρ c)
    · exact (h c _ (Cert.KernelIdeal.Hand.mem_uc Cert.KernelIdeal.main_arg7 (by decide))).trans (Cert.KernelIdeal.Hand.W4_main_arg7 m ρ c)
    · exact (h c _ (Cert.KernelIdeal.Hand.mem_uc Cert.KernelIdeal.main_arg8 (by decide))).trans (Cert.KernelIdeal.Hand.W4_main_arg8 m ρ c)
    · exact (h c _ (Cert.KernelIdeal.Hand.mem_uc Cert.KernelIdeal.main_arg9 (by decide))).trans (Cert.KernelIdeal.Hand.W4_main_arg9 m ρ c)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
